-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x1024x1024 .f32) (main_arg1 : FVec F S1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32x1024x1024 : Shape := ⟨3, ![32, 1024, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S2x8x128 : Shape := ⟨3, ![2, 8, 128]⟩
abbrev S1x512x1024 : Shape := ⟨3, ![1, 512, 1024]⟩
abbrev S512x512 : Shape := ⟨2, ![512, 512]⟩
abbrev S1x8x128 : Shape := ⟨3, ![1, 8, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1x1x1 : Shape := ⟨3, ![1, 1, 1]⟩
abbrev S_ : Shape := ⟨0, ![]⟩
abbrev S1024x32x1024 : Shape := ⟨3, ![1024, 32, 1024]⟩
abbrev S1024x32 : Shape := ⟨2, ![1024, 32]⟩
abbrev S1024x32x32 : Shape := ⟨3, ![1024, 32, 32]⟩
abbrev S1024x32x1 : Shape := ⟨3, ![1024, 32, 1]⟩
abbrev S1024x1x32 : Shape := ⟨3, ![1024, 1, 32]⟩
abbrev S32x32 : Shape := ⟨2, ![32, 32]⟩
abbrev S1x32x32 : Shape := ⟨3, ![1, 32, 32]⟩

abbrev nBuf : Space → Nat
  | .hbm => 63
  | .vmem => 14
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024x1024, .f32⟩
  | .hbm, ⟨3, _⟩ => ⟨S2x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x32x1024, .f32⟩
  | .hbm, ⟨9, _⟩ => ⟨S1024x32x1024, .f32⟩
  | .hbm, ⟨10, _⟩ => ⟨S_, .f32⟩
  | .hbm, ⟨11, _⟩ => ⟨S1024x32, .f32⟩
  | .hbm, ⟨12, _⟩ => ⟨S1024x32x32, .f32⟩
  | .hbm, ⟨13, _⟩ => ⟨S1024x32x1, .f32⟩
  | .hbm, ⟨14, _⟩ => ⟨S1024x1x32, .f32⟩
  | .hbm, ⟨15, _⟩ => ⟨S1024x32x32, .f32⟩
  | .hbm, ⟨16, _⟩ => ⟨S1024x32x32, .f32⟩
  | .hbm, ⟨17, _⟩ => ⟨S1024x32x32, .f32⟩
  | .hbm, ⟨18, _⟩ => ⟨S_, .f32⟩
  | .hbm, ⟨19, _⟩ => ⟨S1024x32x32, .f32⟩
  | .hbm, ⟨20, _⟩ => ⟨S1024x32x32, .f32⟩
  | .hbm, ⟨21, _⟩ => ⟨S1024x32x32, .f32⟩
  | .hbm, ⟨22, _⟩ => ⟨S_, .f32⟩
  | .hbm, ⟨23, _⟩ => ⟨S1024x32x32, .f32⟩
  | .hbm, ⟨24, _⟩ => ⟨S1024x32x32, .f32⟩
  | .hbm, ⟨25, _⟩ => ⟨S_, .f32⟩
  | .hbm, ⟨26, _⟩ => ⟨S1024x32x32, .f32⟩
  | .hbm, ⟨27, _⟩ => ⟨S1024x32x32, .f32⟩
  | .hbm, ⟨28, _⟩ => ⟨S1024x32x32, .f32⟩
  | .hbm, ⟨29, _⟩ => ⟨S_, .f32⟩
  | .hbm, ⟨30, _⟩ => ⟨S1024x32x32, .f32⟩
  | .hbm, ⟨31, _⟩ => ⟨S1024x32x32, .f32⟩
  | .hbm, ⟨32, _⟩ => ⟨S_, .f32⟩
  | .hbm, ⟨33, _⟩ => ⟨S1024x32x32, .f32⟩
  | .hbm, ⟨34, _⟩ => ⟨S1024x32x32, .f32⟩
  | .hbm, ⟨35, _⟩ => ⟨S_, .i1⟩
  | .hbm, ⟨36, _⟩ => ⟨S32x32, .i1⟩
  | .hbm, ⟨37, _⟩ => ⟨S32x32, .i32⟩
  | .hbm, ⟨38, _⟩ => ⟨S_, .i32⟩
  | .hbm, ⟨39, _⟩ => ⟨S32x32, .i32⟩
  | .hbm, ⟨40, _⟩ => ⟨S32x32, .i32⟩
  | .hbm, ⟨41, _⟩ => ⟨S32x32, .i32⟩
  | .hbm, ⟨42, _⟩ => ⟨S32x32, .i1⟩
  | .hbm, ⟨43, _⟩ => ⟨S_, .i1⟩
  | .hbm, ⟨44, _⟩ => ⟨S32x32, .i1⟩
  | .hbm, ⟨45, _⟩ => ⟨S32x32, .i1⟩
  | .hbm, ⟨46, _⟩ => ⟨S1x32x32, .i1⟩
  | .hbm, ⟨47, _⟩ => ⟨S_, .f32⟩
  | .hbm, ⟨48, _⟩ => ⟨S_, .f32⟩
  | .hbm, ⟨49, _⟩ => ⟨S1024x32x32, .i1⟩
  | .hbm, ⟨50, _⟩ => ⟨S1024x32x32, .f32⟩
  | .hbm, ⟨51, _⟩ => ⟨S1024x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x512, .f32⟩
  | .local _ .vmem, ⟨11, _⟩ => ⟨S512x512, .f32⟩
  | .local _ .vmem, ⟨12, _⟩ => ⟨S1x8x128, .f32⟩
  | .local _ .vmem, ⟨13, _⟩ => ⟨S1x8x128, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 32, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  reduces_S256x1024_S256 : S256x1024.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S1x8x128_S1x8x128_0_0_0 : ∀ a, (![0, 0, 0] : Fin 3 → Nat) a + S1x8x128.size a ≤ S1x8x128.size a
  h_S1x8x128 : 0 < S1x8x128.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  reduces_S512x1_S1 : S512x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  reducesTo_S2x8x128_S_d0_1_2 : S2x8x128.ReducesTo [0, 1, 2] S_
  h_S_ : 0 < S_.numel
  transposes_S32x1024x1024_S1024x32x1024_1_0_2 : S32x1024x1024.Transposes [1, 0, 2] S1024x32x1024
  reducesTo_S1024x32x1024_S1024x32_d2 : S1024x32x1024.ReducesTo [2] S1024x32
  bcast_S1024x32_S1024x32x1_0_1 : S1024x32.BroadcastsInDim S1024x32x1 (![0, 1] : Fin 2 → Fin S1024x32x1.rank)
  bcast_S1024x32_S1024x1x32_0_2 : S1024x32.BroadcastsInDim S1024x1x32 (![0, 2] : Fin 2 → Fin S1024x1x32.rank)
  bcast_S1024x32x1_S1024x32x32_0_1_2 : S1024x32x1.BroadcastsInDim S1024x32x32 (![0, 1, 2] : Fin 3 → Fin S1024x32x32.rank)
  bcast_S1024x1x32_S1024x32x32_0_1_2 : S1024x1x32.BroadcastsInDim S1024x32x32 (![0, 1, 2] : Fin 3 → Fin S1024x32x32.rank)
  bcast_S_S1024x32x32 : S_.BroadcastsInDim S1024x32x32 (![] : Fin 0 → Fin S1024x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S1024x32x32_0_1_2 : S1x32x32.BroadcastsInDim S1024x32x32 (![0, 1, 2] : Fin 3 → Fin S1024x32x32.rank)
  reducesTo_S1024x32x32_S_d0_1_2 : S1024x32x32.ReducesTo [0, 1, 2] S_
  dot_S256x1024_S256x1024_S256x256_1_1_0_0_n_n_wf : DotDims.WF S256x1024 S256x1024 S256x256 [1] [1] [0] [0] [] []
  dot_S512x1024_S512x1024_S512x512_1_1_0_0_n_n_wf : DotDims.WF S512x1024 S512x1024 S512x512 [1] [1] [0] [0] [] []
  dot_S1024x32x1024_S1024x32x1024_S1024x32x32_2_2_1_1_0_0_wf : DotDims.WF S1024x32x1024 S1024x32x1024 S1024x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .f32 = 32 ∨ (Rect.block (s := S1024x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x1024.size a
  hwx0_2 : ∀ i : grid0.Coords, EltTy.bits .f32 = 32 ∨ (Rect.block (s := S1024x1024) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x1024x1024.size a
  hwx1_0 : ∀ i : grid1.Coords, EltTy.bits .f32 = 32 ∨ (Rect.block (s := S32x1024x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S32x1024x1024.size a
  hwx1_1 : ∀ i : grid1.Coords, EltTy.bits .f32 = 32 ∨ (Rect.block (s := S32x1024x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S1024x1024.size a
  hwx1_2 : ∀ i : grid1.Coords, EltTy.bits .f32 = 32 ∨ (Rect.block (s := S1024x1024) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S2x8x128.size a
  hwx1_3 : ∀ i : grid1.Coords, EltTy.bits .f32 = 32 ∨ (Rect.block (s := S2x8x128) S1x8x128.size (cc1_transform_3 i) (hinb1_3 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S1024x32x1024_S1024x32x1024_S1024x32x32_2_2_1_1_0_0 : DotDims S1024x32x1024 S1024x32x1024 S1024x32x32 where
  lhsContracting := [2]
  rhsContracting := [2]
  lhsNonContracting := [1]
  rhsNonContracting := [1]
  lhsBatch := [0]
  rhsBatch := [0]
  wf := dot_S1024x32x1024_S1024x32x1024_S1024x32x32_2_2_1_1_0_0_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S32x1024 : Shape := ⟨2, ![32, 1024]⟩
abbrev S32x1024x1 : Shape := ⟨3, ![32, 1024, 1]⟩
abbrev S32x1x1024 : Shape := ⟨3, ![32, 1, 1024]⟩
abbrev S1x1024x1024 : Shape := ⟨3, ![1, 1024, 1024]⟩
abbrev S1024x32x1024 : Shape := ⟨3, ![1024, 32, 1024]⟩
abbrev S1024x32 : Shape := ⟨2, ![1024, 32]⟩
abbrev S1024x32x32 : Shape := ⟨3, ![1024, 32, 32]⟩
abbrev S1024x32x1 : Shape := ⟨3, ![1024, 32, 1]⟩
abbrev S1024x1x32 : Shape := ⟨3, ![1024, 1, 32]⟩
abbrev S32x32 : Shape := ⟨2, ![32, 32]⟩
abbrev S1x32x32 : Shape := ⟨3, ![1, 32, 32]⟩

abbrev nBuf : Space → Nat
  | .hbm => 107
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S32x1024x1024, .f32⟩
  | .hbm, ⟨24, _⟩ => ⟨S_, .f32⟩
  | .hbm, ⟨25, _⟩ => ⟨S32x1024, .f32⟩
  | .hbm, ⟨26, _⟩ => ⟨S32x1024x1, .f32⟩
  | .hbm, ⟨27, _⟩ => ⟨S32x1x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S32x1024x1024, .f32⟩
  | .hbm, ⟨33, _⟩ => ⟨S_, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S_, .f32⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S32x1024x1024, .f32⟩
  | .hbm, ⟨42, _⟩ => ⟨S32x1024x1024, .f32⟩
  | .hbm, ⟨43, _⟩ => ⟨S32x1024x1024, .f32⟩
  | .hbm, ⟨44, _⟩ => ⟨S1x1024x1024, .f32⟩
  | .hbm, ⟨45, _⟩ => ⟨S32x1024x1024, .f32⟩
  | .hbm, ⟨46, _⟩ => ⟨S32x1024x1024, .f32⟩
  | .hbm, ⟨47, _⟩ => ⟨S32x1024x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024x32x1024, .f32⟩
  | .hbm, ⟨53, _⟩ => ⟨S1024x32x1024, .f32⟩
  | .hbm, ⟨54, _⟩ => ⟨S_, .f32⟩
  | .hbm, ⟨55, _⟩ => ⟨S1024x32, .f32⟩
  | .hbm, ⟨56, _⟩ => ⟨S1024x32x32, .f32⟩
  | .hbm, ⟨57, _⟩ => ⟨S1024x32x1, .f32⟩
  | .hbm, ⟨58, _⟩ => ⟨S1024x1x32, .f32⟩
  | .hbm, ⟨59, _⟩ => ⟨S1024x32x32, .f32⟩
  | .hbm, ⟨60, _⟩ => ⟨S1024x32x32, .f32⟩
  | .hbm, ⟨61, _⟩ => ⟨S1024x32x32, .f32⟩
  | .hbm, ⟨62, _⟩ => ⟨S_, .f32⟩
  | .hbm, ⟨63, _⟩ => ⟨S1024x32x32, .f32⟩
  | .hbm, ⟨64, _⟩ => ⟨S1024x32x32, .f32⟩
  | .hbm, ⟨65, _⟩ => ⟨S1024x32x32, .f32⟩
  | .hbm, ⟨66, _⟩ => ⟨S_, .f32⟩
  | .hbm, ⟨67, _⟩ => ⟨S1024x32x32, .f32⟩
  | .hbm, ⟨68, _⟩ => ⟨S1024x32x32, .f32⟩
  | .hbm, ⟨69, _⟩ => ⟨S_, .f32⟩
  | .hbm, ⟨70, _⟩ => ⟨S1024x32x32, .f32⟩
  | .hbm, ⟨71, _⟩ => ⟨S1024x32x32, .f32⟩
  | .hbm, ⟨72, _⟩ => ⟨S1024x32x32, .f32⟩
  | .hbm, ⟨73, _⟩ => ⟨S_, .f32⟩
  | .hbm, ⟨74, _⟩ => ⟨S1024x32x32, .f32⟩
  | .hbm, ⟨75, _⟩ => ⟨S1024x32x32, .f32⟩
  | .hbm, ⟨76, _⟩ => ⟨S_, .f32⟩
  | .hbm, ⟨77, _⟩ => ⟨S1024x32x32, .f32⟩
  | .hbm, ⟨78, _⟩ => ⟨S1024x32x32, .f32⟩
  | .hbm, ⟨79, _⟩ => ⟨S_, .i1⟩
  | .hbm, ⟨80, _⟩ => ⟨S32x32, .i1⟩
  | .hbm, ⟨81, _⟩ => ⟨S32x32, .i32⟩
  | .hbm, ⟨82, _⟩ => ⟨S_, .i32⟩
  | .hbm, ⟨83, _⟩ => ⟨S32x32, .i32⟩
  | .hbm, ⟨84, _⟩ => ⟨S32x32, .i32⟩
  | .hbm, ⟨85, _⟩ => ⟨S32x32, .i32⟩
  | .hbm, ⟨86, _⟩ => ⟨S32x32, .i1⟩
  | .hbm, ⟨87, _⟩ => ⟨S_, .i1⟩
  | .hbm, ⟨88, _⟩ => ⟨S32x32, .i1⟩
  | .hbm, ⟨89, _⟩ => ⟨S32x32, .i1⟩
  | .hbm, ⟨90, _⟩ => ⟨S1x32x32, .i1⟩
  | .hbm, ⟨91, _⟩ => ⟨S_, .f32⟩
  | .hbm, ⟨92, _⟩ => ⟨S_, .f32⟩
  | .hbm, ⟨93, _⟩ => ⟨S1024x32x32, .i1⟩
  | .hbm, ⟨94, _⟩ => ⟨S1024x32x32, .f32⟩
  | .hbm, ⟨95, _⟩ => ⟨S1024x32x32, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_call0_cst : Ref sig .tc := ⟨.hbm, 76, rfl⟩
abbrev main_call0_v0 : Ref sig .tc := ⟨.hbm, 77, rfl⟩
abbrev main_v59 : Ref sig .tc := ⟨.hbm, 78, rfl⟩
abbrev main_c : Ref sig .tc := ⟨.hbm, 79, rfl⟩
abbrev main_v60 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_0 : Ref sig .tc := ⟨.hbm, 87, rfl⟩
abbrev main_call1_v5 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_cst_17 : Ref sig .tc := ⟨.hbm, 100, rfl⟩
abbrev main_v66 : Ref sig .tc := ⟨.hbm, 101, rfl⟩
abbrev main_cst_18 : Ref sig .tc := ⟨.hbm, 102, rfl⟩
abbrev main_v67 : Ref sig .tc := ⟨.hbm, 103, rfl⟩
abbrev main_cst_19 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x1024_S1024x1024_1_0 : S1024x1024.Transposes [1, 0] S1024x1024
  bcast_S_S1024x1024 : S_.BroadcastsInDim S1024x1024 (![] : Fin 0 → Fin S1024x1024.rank)
  reducesTo_S32x1024x1024_S32x1024_d2 : S32x1024x1024.ReducesTo [2] S32x1024
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  transposes_S32x1024x1024_S32x1024x1024_0_2_1 : S32x1024x1024.Transposes [0, 2, 1] S32x1024x1024
  bcast_S_S32x1024x1024 : S_.BroadcastsInDim S32x1024x1024 (![] : Fin 0 → Fin S32x1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S_d0_1_2 : S32x1024x1024.ReducesTo [0, 1, 2] S_
  transposes_S32x1024x1024_S1024x32x1024_1_0_2 : S32x1024x1024.Transposes [1, 0, 2] S1024x32x1024
  reducesTo_S1024x32x1024_S1024x32_d2 : S1024x32x1024.ReducesTo [2] S1024x32
  bcast_S1024x32_S1024x32x1_0_1 : S1024x32.BroadcastsInDim S1024x32x1 (![0, 1] : Fin 2 → Fin S1024x32x1.rank)
  bcast_S1024x32_S1024x1x32_0_2 : S1024x32.BroadcastsInDim S1024x1x32 (![0, 2] : Fin 2 → Fin S1024x1x32.rank)
  bcast_S1024x32x1_S1024x32x32_0_1_2 : S1024x32x1.BroadcastsInDim S1024x32x32 (![0, 1, 2] : Fin 3 → Fin S1024x32x32.rank)
  bcast_S1024x1x32_S1024x32x32_0_1_2 : S1024x1x32.BroadcastsInDim S1024x32x32 (![0, 1, 2] : Fin 3 → Fin S1024x32x32.rank)
  bcast_S_S1024x32x32 : S_.BroadcastsInDim S1024x32x32 (![] : Fin 0 → Fin S1024x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S1024x32x32_0_1_2 : S1x32x32.BroadcastsInDim S1024x32x32 (![0, 1, 2] : Fin 3 → Fin S1024x32x32.rank)
  reducesTo_S1024x32x32_S_d0_1_2 : S1024x32x32.ReducesTo [0, 1, 2] S_
  dot_S1024x1024_S1024x1024_S1024x1024_1_0_0_1_n_n_wf : DotDims.WF S1024x1024 S1024x1024 S1024x1024 [1] [0] [0] [1] [] []
  dot_S32x1024x1024_S32x1024x1024_S32x1024x1024_2_1_1_2_0_0_wf : DotDims.WF S32x1024x1024 S32x1024x1024 S32x1024x1024 [2] [1] [1] [2] [0] [0]
  dot_S1024x32x1024_S1024x32x1024_S1024x32x32_2_2_1_1_0_0_wf : DotDims.WF S1024x32x1024 S1024x32x1024 S1024x32x32 [2] [2] [1] [1] [0] [0]

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S1024x32x1024_S1024x32x1024_S1024x32x32_2_2_1_1_0_0 : DotDims S1024x32x1024 S1024x32x1024 S1024x32x32 where
  lhsContracting := [2]
  rhsContracting := [2]
  lhsNonContracting := [1]
  rhsNonContracting := [1]
  lhsBatch := [0]
  rhsBatch := [0]
  wf := dot_S1024x32x1024_S1024x32x1024_S1024x32x32_2_2_1_1_0_0_wf

class Facts : Prop extends Facts₀ where

variable [Facts]
-- ==== Proof.KI.R0.lean ====
/-
  The first kernel region: the pairwise distance matrix of the sentence rows, tile by tile.

  Each grid point (r, c) of the 4 × 4 grid reads row tile r and row tile c of the one sentence array (two windows onto
  the same array, each holding half of the read permission) and overwrites the 256 × 256 output tile (r, c) with one
  store of a pure function of the two tiles. This module states what the output's staging buffer holds after the body
  at every point, proves the body's triple, and discharges the pipeline's per-point obligation.
-/
import proofs.«136828_j84619445666637_1_alg».proof.Proof.Gen.KernelIdeal.Launch
import proofs.«136828_j84619445666637_1_alg».proof.Proof.Gen.KernelIdeal.Skeleton
import proofs.«136828_j84619445666637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The column-tile window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole input tile and the whole output tile, as rectangles. -/
abbrev rIn0 : Rect S256x1024 := Rect.unit (s := S256x1024) ![0, 0] S256x1024.size inb_S256x1024_S256x1024_0_0
abbrev rOut0 : Rect S256x256 := Rect.unit (s := S256x256) ![0, 0] S256x256.size inb_S256x256_S256x256_0_0

/-- The output tile after the body: its one store, of the distance function of the two input tiles. -/
def out0_2 (x0 x1 : Vec F S256x1024 .f32) : Vec F S256x256 .f32 :=
  View.canon [⟨rOut0, k0_pay1 (View.ld x0 rIn0) (View.ld x1 rIn0)⟩]

/-- The one store covers the tile. -/
theorem cover0_2 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

set_option maxHeartbeats 1000000 in
/-- The body on whole staging buffers: the two input tiles are read and kept, the output tile ends at `out0_2`. -/
theorem sound_kernel0 (c : Dev nD) (E : Set ℕ) (i : grid0.Coords) (arg2 : Memref sig .tc .vmem S256x1024 .f32) (harg2 : arg2.IsWhole)
    (arg3 : Memref sig .tc .vmem S256x1024 .f32) (harg3 : arg3.IsWhole) (arg4 : Memref sig .tc .vmem S256x256 .f32) (harg4 : arg4.IsWhole)
    (x0 x1 : Vec F S256x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input window
    at its block and the output window at `out0_2` of the two blocks; the two windows onto the sentence array hold
    the two halves of its read permission. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Run.lean ====
/-
  The second kernel region: the tiled sum of squared distance differences.

  The grid is 2 × 32 × 2: row tile r, slice i, column tile c, visited in that order. A point reads row tile r and row
  tile c of slice i (two windows onto the one array of slices, each with half of its read permission) and tile (r, c)
  of the distance matrix the first region wrote, and adds one number to every entry of row tile r's 8 × 128 output
  block; the first visit of a row tile (i = 0 and c = 0) first resets the block to zero. The block is written back after
  the last visit of its row tile. This module proves the body's triple in both cases, says what the block holds after
  every point by recursion on the point, and discharges the pipeline's per-point obligation.
-/
import proofs.«136828_j84619445666637_1_alg».proof.Proof.Gen.KernelIdeal.Launch
import proofs.«136828_j84619445666637_1_alg».proof.Proof.Gen.KernelIdeal.Skeleton
import proofs.«136828_j84619445666637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's reset condition from the grid coordinates: slice 0 and column tile 0. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first visit of each row tile. -/
theorem hcond1_0 : ∀ t : Fin cfg1.N, cond1_0 (grid1.coords t) ↔ t.val % 64 = 0 :=
  (by decide +kernel : ∀ t : Fin grid1.N, cond1_0 (grid1.coords t) ↔ t.val % 64 = 0)

/-- One staging buffer of the output window, through which its contents are stated. -/
abbrev VO1_3 : View sig .tc .vmem S1x8x128 .f32 := (Memref.whole cc1_stg3_0 : Memref sig .tc .vmem S1x8x128 .f32).view
/-- Each window's current staging memref at point `t`, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x128 .f32 := win1_3.stage (cfg1.slots t 3)
abbrev hs1_3 (t : Fin cfg1.N) : (ms1_3 t).IsWhole := hstage1_3 ((cfg1.slots t 3).cast nbuf1_3)

set_option maxHeartbeats 2000000 in
/-- The body at a first visit (the reset is taken): the pieces its stores leave in the output block, with the proof that
    on whole staging memrefs — the inputs at their contents, the output at anything — it runs to the continuation with
    the inputs kept and those pieces written. -/
noncomputable def kernelRun1_A (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) :
    { L3 : List (View.Piece (Elt F) S1x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__sentence_kernel i arg3 harg3 arg4 harg4 arg5 harg5 arg6 harg6) K } := by
  refine ⟨?_, fun E K => ?run⟩
  case run =>
    simp only [cc1__sentence_kernel_eq_skeleton]; unfold cc1__sentence_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 2000000 in
/-- The body at a later visit (no reset): the output block enters at its running contents `xo3`. -/
noncomputable def kernelRun1_B (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) :
    { L3 : List (View.Piece (Elt F) S1x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo3
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__sentence_kernel i arg3 harg3 arg4 harg4 arg5 harg5 arg6 harg6) K } := by
  refine ⟨?_, fun E K => ?run⟩
  case run =>
    simp only [cc1__sentence_kernel_eq_skeleton]; unfold cc1__sentence_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Region1

end Cert.KernelIdeal.Hand

end
-- ==== Proof.KI.R1.lean ====
/-
  The second kernel region, continued: what the output block holds after every point, the proof data, and the
  pipeline's per-point obligation.

  After the first visit of a row tile the block holds that visit's result over a block reset to zero; after any later
  visit it holds that visit's result over what the visit before left — the block is not written back in between, only
  after the 64th visit of its row tile.
-/
import proofs.«136828_j84619445666637_1_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- At a first visit the pieces tile the output block, so they cover it. -/
theorem cover1_A_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) (y : S1x8x128.Idx) :
    ∃ pc ∈ (kernelRun1_A c i arg3 harg3 arg4 harg4 arg5 harg5 arg6 harg6 hc0 x0 x1 x2).1, y ∈ pc.1.set :=
  View.cover_of_tiledL (kernelRun1_A c i arg3 harg3 arg4 harg4 arg5 harg5 arg6 harg6 hc0 x0 x1 x2).1 S1x8x128.size (by sl_kernel_rfl) y

/-- What a first visit leaves in the output block: its pieces read back. -/
def out1_A_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) : Vec F S1x8x128 .f32 :=
  VO1_3.read (Elt F) (VO1_3.writes (Elt F) VO1_3.junk (kernelRun1_A c i arg3 harg3 arg4 harg4 arg5 harg5 arg6 harg6 hc0 x0 x1 x2).1)

/-- At a later visit the pieces tile the output block too. -/
theorem cover1_B_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) (y : S1x8x128.Idx) :
    ∃ pc ∈ (kernelRun1_B c i arg3 harg3 arg4 harg4 arg5 harg5 arg6 harg6 hc0 x0 x1 x2 xo3).1, y ∈ pc.1.set :=
  View.cover_of_tiledL (kernelRun1_B c i arg3 harg3 arg4 harg4 arg5 harg5 arg6 harg6 hc0 x0 x1 x2 xo3).1 S1x8x128.size (by sl_kernel_rfl) y

/-- What a later visit leaves in the output block, entered at `xo3`. -/
def out1_B_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) : Vec F S1x8x128 .f32 :=
  VO1_3.read (Elt F) (VO1_3.writes (Elt F) VO1_3.junk (kernelRun1_B c i arg3 harg3 arg4 harg4 arg5 harg5 arg6 harg6 hc0 x0 x1 x2 xo3).1)

/-- The accumulation: what the output block holds after the body at position `n`. -/
def outsAt1 (c : Dev nD) : (n : ℕ) → n < cfg1.N → Vec F S1x8x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 64 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (iblk1 V c 0 ⟨n + 1, hn⟩) (iblk1 V c 1 ⟨n + 1, hn⟩) (iblk1 V c 2 ⟨n + 1, hn⟩)
        (outsAt1 c n (Nat.lt_of_succ_lt hn))

/-- At a first visit: that visit's contents. -/
theorem outsAt1_A (c : Dev nD) (t : Fin cfg1.N) (h0 : t.val % 64 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t) := by
  obtain ⟨n, hn⟩ := t
  cases n with
  | zero => exact rfl
  | succ n => exact (dif_pos h0).trans rfl

/-- At a later visit: that visit's contents over what the visit before left. -/
theorem outsAt1_B (c : Dev nD) (t : Fin cfg1.N) (h0 : ¬t.val % 64 = 0) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the region on core `c`: the arrays as the region finds them; after the body each input window
    at its block and the output block at `outsAt1`; the two windows onto the array of slices hold the two halves of
    its read permission. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨0, _⟩ => PosShare.left fullShare
    | ⟨1, _⟩ => PosShare.right fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later visit the output block's current staging buffer holds what the body left at the point before: it was
    not written back in between. -/
theorem before1_3_B (c : Dev nD) (t : Fin cfg1.N) (h0 : ¬t.val % 64 = 0) (d) :
    (dat1 V c).before 3 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the point is a first visit or a later one; at a
    later one the output block holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 128 := lt_of_lt_of_eq t.isLt (show cfg1.N = 128 from N_1)
  by_cases h0 : t.val % 64 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program as a run of segments: the first kernel region, the second kernel region, then the host operations
  that follow them.

  Between two segments the core holds every unscoped buffer whole at known contents: the launch contents; then with the
  distance matrix at what the first region's write-backs leave; then with the block sums at what the second region's
  write-backs leave; then each host stretch applied in turn. Each region splits its windows' arrays out of those buffers
  on entry — an array two input windows read is shared between them half and half — and puts them back on exit at the
  contents the pipeline computes. The run ends with every unscoped buffer read off the last contents.
-/
import proofs.«136828_j84619445666637_1_alg».proof.Proof.KI.R0
import proofs.«136828_j84619445666637_1_alg».proof.Proof.KI.R1
import proofs.«136828_j84619445666637_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The shared arrays: the buffers behind a region's arrays against the windows' arrays -/

section Shares

variable (V V' : (c : Dev nD) → (b : Ref sig .tc) → Buf (Elt F) ((c : Thread nD τ).loc b))

/-- A conjunction over two (three) listed buffers, one by one. -/
theorem bigSep_two {M : Type} [URA M] {I : Type} [DecidableEq I] (a b : I) (h : a ∉ ({b} : Finset I)) (Φ : I → sProp M) :
    bigSep ({a, b} : Finset I) Φ = iprop(Φ a ∗ Φ b) := by
  rw [bigSep_insert h, bigSep_singleton]; rfl
theorem bigSep_three {M : Type} [URA M] {I : Type} [DecidableEq I] (a b d : I) (h : a ∉ ({b, d} : Finset I)) (h' : b ∉ ({d} : Finset I)) (Φ : I → sProp M) :
    bigSep ({a, b, d} : Finset I) Φ = iprop(Φ a ∗ Φ b ∗ Φ d) := by
  rw [bigSep_insert h, bigSep_insert h', bigSep_singleton]; rfl

theorem img0 : Finset.univ.image (Pipeline.arrRef spec0) = {main_arg1, main_v0} := by decide
theorem img1 : Finset.univ.image (Pipeline.arrRef spec1) = {main_arg0, main_v0, main_v1} := by decide

/-- Region 0, entry: the sentence array's buffer, split half and half between the two windows that read it, and the
    distance matrix's buffer are the three windows' arrays at their entry contents. -/
theorem arrays0_entry (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [img0, bigSep_W0, bigSep_two _ _ (by decide)]
  rw [(arr_whole0 0).set_eq_univ, (arr_whole0 2).set_eq_univ]
  iintro ⟨Ha, Ho⟩
  ihave Ha' := (pointsTo_share (PosShare.mem_left_op_right fullShare)).1 $$ Ha
  icases Ha' with ⟨Hl, Hr⟩
  isplitl [Hl]; · iexact Hl
  isplitl [Hr]; · iexact Hr
  iexact Ho

/-- Region 0, exit: the two halves of the sentence array, unchanged, rejoin; the distance matrix's buffer holds what
    the write-backs left. -/
theorem arrays0_exit (c : Dev nD) (hin : V' c main_arg1 = V c main_arg1) (hout : V' c main_v0 = (dat0 V c).arrAt 2 cfg0.N) :
    (dat0 V c).arrays ((dat0 V c).arrAt · cfg0.N) ⊢ (Pipeline.arrBufs (Ix := Unit) (Name := ℕ) (U := UR sig nD τ) (Lvl := ℕ) spec0 c (V' c) : sProp 𝕄) := by
  unfold Pipeline.arrBufs Dat.arrays
  rw [img0, bigSep_W0, bigSep_two _ _ (by decide)]
  rw [(arr_whole0 0).set_eq_univ, (arr_whole0 2).set_eq_univ]
  beta_reduce
  rw [(dat0 V c).arrAt_in 0 rfl _, (dat0 V c).arrAt_in 1 rfl _, A_eq0, A_eq0, hin, hout]
  iintro ⟨Hl, Hr, Ho⟩
  isplitl [Hl Hr]
  · iapply (pointsTo_share (PosShare.mem_left_op_right fullShare)).2
    isplitl [Hl]; · iexact Hl
    iexact Hr
  iexact Ho

/-- Region 1, entry: the array of slices, split half and half between the two windows that read it, the distance
    matrix and the block sums are the four windows' arrays at their entry contents. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [img1, bigSep_W1, bigSep_three _ _ _ (by decide) (by decide)]
  rw [(arr_whole1 0).set_eq_univ, (arr_whole1 2).set_eq_univ, (arr_whole1 3).set_eq_univ]
  iintro ⟨Ha, Hd, Ho⟩
  ihave Ha' := (pointsTo_share (PosShare.mem_left_op_right fullShare)).1 $$ Ha
  icases Ha' with ⟨Hl, Hr⟩
  isplitl [Hl]; · iexact Hl
  isplitl [Hr]; · iexact Hr
  isplitl [Hd]; · iexact Hd
  iexact Ho

/-- Region 1, exit. -/
theorem arrays1_exit (c : Dev nD) (hin0 : V' c main_arg0 = V c main_arg0) (hin2 : V' c main_v0 = V c main_v0)
    (hout : V' c main_v1 = (dat1 V c).arrAt 3 cfg1.N) :
    (dat1 V c).arrays ((dat1 V c).arrAt · cfg1.N) ⊢ (Pipeline.arrBufs (Ix := Unit) (Name := ℕ) (U := UR sig nD τ) (Lvl := ℕ) spec1 c (V' c) : sProp 𝕄) := by
  unfold Pipeline.arrBufs Dat.arrays
  rw [img1, bigSep_W1, bigSep_three _ _ _ (by decide) (by decide)]
  rw [(arr_whole1 0).set_eq_univ, (arr_whole1 2).set_eq_univ, (arr_whole1 3).set_eq_univ]
  beta_reduce
  rw [(dat1 V c).arrAt_in 0 rfl _, (dat1 V c).arrAt_in 1 rfl _, (dat1 V c).arrAt_in 2 rfl _, A_eq1, A_eq1, A_eq1, hin0, hin2, hout]
  iintro ⟨Hl, Hr, Hd, Ho⟩
  isplitl [Hl Hr]
  · iapply (pointsTo_share (PosShare.mem_left_op_right fullShare)).2
    isplitl [Hl]; · iexact Hl
    iexact Hr
  isplitl [Hd]; · iexact Hd
  iexact Ho

end Shares

/-! ## The buffers' contents at each segment boundary -/

section Run

variable (m : (ℓ : Loc nD τ sig) → Buf (Elt F) ℓ) (ρ : Dev nD → PrngReg)

/-- Core `c`'s unscoped buffers at launch. -/
abbrev W0 (c : Dev nD) : Valuation τ sig (Elt F) := fun b => m (c, b)
abbrev VT0 : (c : Dev nD) → (b : Ref sig .tc) → Buf (Elt F) ((c : Thread nD τ).loc b) := fun c b => W0 m c b
/-- What the first region's write-backs leave in the distance matrix. -/
def D0 (c : Dev nD) : Buf (Elt F) ((c : Thread nD τ).loc main_v0) := (dat0 (VT0 m) c).arrAt 2 cfg0.N
/-- After the first region. -/
def W1 (c : Dev nD) : Valuation τ sig (Elt F) := Function.update (W0 m c) main_v0 (D0 m c)
abbrev VT1 : (c : Dev nD) → (b : Ref sig .tc) → Buf (Elt F) ((c : Thread nD τ).loc b) := fun c b => W1 m c b
/-- What the second region's write-backs leave in the block sums. -/
def D1 (c : Dev nD) : Buf (Elt F) ((c : Thread nD τ).loc main_v1) := (dat1 (VT1 m) c).arrAt 3 cfg1.N
/-- After the second region. -/
def W2 (c : Dev nD) : Valuation τ sig (Elt F) := Function.update (W1 m c) main_v1 (D1 m c)
abbrev VT2 : (c : Dev nD) → (b : Ref sig .tc) → Buf (Elt F) ((c : Thread nD τ).loc b) := fun c b => W2 m c b
/-- After each host stretch. -/
abbrev W3 (c : Dev nD) : Valuation τ sig (Elt F) := StableHlo.after hostOps2 (W2 m c)
abbrev W4 (c : Dev nD) : Valuation τ sig (Elt F) := StableHlo.after hostOps2_1 (W3 m c)
abbrev W5 (c : Dev nD) : Valuation τ sig (Elt F) := StableHlo.after hostOps2_2 (W4 m c)
abbrev W6 (c : Dev nD) : Valuation τ sig (Elt F) := StableHlo.after hostOps2_3 (W5 m c)
abbrev W7 (c : Dev nD) : Valuation τ sig (Elt F) := StableHlo.after hostOps2_4 (W6 m c)
abbrev W8 (c : Dev nD) : Valuation τ sig (Elt F) := StableHlo.after hostOps2_5 (W7 m c)
abbrev W9 (c : Dev nD) : Valuation τ sig (Elt F) := StableHlo.after hostOps2_6 (W8 m c)

theorem W1_v0 (c : Dev nD) : W1 m c main_v0 = D0 m c := by unfold W1; exact Function.update_self _ _ _
theorem W1_of_ne (c : Dev nD) (r : Ref sig .tc) (h : r ≠ main_v0) : W1 m c r = W0 m c r := by
  unfold W1; exact Function.update_of_ne (StableHlo.devRef_ne_of_ne h) _ _
theorem W2_v1 (c : Dev nD) : W2 m c main_v1 = D1 m c := by unfold W2; exact Function.update_self _ _ _
theorem W2_of_ne (c : Dev nD) (r : Ref sig .tc) (h : r ≠ main_v1) : W2 m c r = W1 m c r := by
  unfold W2; exact Function.update_of_ne (StableHlo.devRef_ne_of_ne h) _ _

/-- No segment writes an argument. -/
theorem W9_of_arg (c : Dev nD) (r : Ref sig .tc) (h3 : r ∉ hostOps2_W) (h4 : r ∉ hostOps2_1_W) (h5 : r ∉ hostOps2_2_W) (h6 : r ∉ hostOps2_3_W)
    (h7 : r ∉ hostOps2_4_W) (h8 : r ∉ hostOps2_5_W) (h9 : r ∉ hostOps2_6_W) : W9 m c r = W2 m c r :=
  (StableHlo.after_of_writes_sub hostOps2_6 _ hostOps2_6_writes h9).trans <|
  (StableHlo.after_of_writes_sub hostOps2_5 _ hostOps2_5_writes h8).trans <|
  (StableHlo.after_of_writes_sub hostOps2_4 _ hostOps2_4_writes h7).trans <|
  (StableHlo.after_of_writes_sub hostOps2_3 _ hostOps2_3_writes h6).trans <|
  (StableHlo.after_of_writes_sub hostOps2_2 _ hostOps2_2_writes h5).trans <|
  (StableHlo.after_of_writes_sub hostOps2_1 _ hostOps2_1_writes h4).trans <|
  (StableHlo.after_of_writes_sub hostOps2 _ hostOps2_writes h3)

theorem W9_main_arg0 (c : Dev nD) : W9 m c main_arg0 = m ((c : Thread nD τ).loc main_arg0) :=
  (W9_of_arg m c main_arg0 (by decide) (by decide) (by decide) (by decide) (by decide) (by decide) (by decide)).trans <|
    (W2_of_ne m c main_arg0 (by decide)).trans <| (W1_of_ne m c main_arg0 (by decide)).trans rfl
theorem W9_main_arg1 (c : Dev nD) : W9 m c main_arg1 = m ((c : Thread nD τ).loc main_arg1) :=
  (W9_of_arg m c main_arg1 (by decide) (by decide) (by decide) (by decide) (by decide) (by decide) (by decide)).trans <|
    (W2_of_ne m c main_arg1 (by decide)).trans <| (W1_of_ne m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VT0 m) c
  | ⟨1, _⟩ => fun c => dat1 (VT1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Off region 0's arrays the contents after it are the contents before it. -/
theorem rest0_eq (c : Dev nD) :
    (Pipeline.unscopedRest (Ix := Unit) (Name := ℕ) (U := UR sig nD τ) (Lvl := ℕ) spec0 c (VT1 m c) : sProp 𝕄)
      = Pipeline.unscopedRest (Ix := Unit) (Name := ℕ) (U := UR sig nD τ) (Lvl := ℕ) spec0 c (VT0 m c) := by
  unfold Pipeline.unscopedRest
  exact bigSep_congr fun b hb => by
    rw [show VT1 m c b = VT0 m c b from W1_of_ne m c b fun e => (Finset.mem_sdiff.mp hb).2 (e ▸ Finset.mem_image.mpr ⟨2, Finset.mem_univ _, rfl⟩)]
/-- Off region 1's arrays likewise. -/
theorem rest1_eq (c : Dev nD) :
    (Pipeline.unscopedRest (Ix := Unit) (Name := ℕ) (U := UR sig nD τ) (Lvl := ℕ) spec1 c (VT2 m c) : sProp 𝕄)
      = Pipeline.unscopedRest (Ix := Unit) (Name := ℕ) (U := UR sig nD τ) (Lvl := ℕ) spec1 c (VT1 m c) := by
  unfold Pipeline.unscopedRest
  exact bigSep_congr fun b hb => by
    rw [show VT2 m c b = VT1 m c b from W2_of_ne m c b fun e => (Finset.mem_sdiff.mp hb).2 (e ▸ Finset.mem_image.mpr ⟨3, Finset.mem_univ _, rfl⟩)]

/-! ## The regions as segments -/

set_option backward.isDefEq.respectTransparency.types false in
/-- The first region: entered from the launch contents, left with the distance matrix at `D0`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VT0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VT0 m c)
  hentry c := by
    rw [Pipeline.ownSems0_none]
    have hsplit := Pipeline.unscopedBufs_split₀ (Ix := Unit) (Name := ℕ) (U := UR sig nD τ) (Lvl := ℕ) (Val := Elt F) cfgs (0 : Fin 2) winFacts₀0.arr_unscoped c (VT0 m c)
    rw [Pipeline.unscopedBufs_held] at hsplit
    iintro ⟨⟨Hub, Hp, HO⟩, -, -⟩
    have hs' := BIBase.Entails.of_eq hsplit
    ihave H := hs' $$ Hub
    icases H with ⟨Ha, Hrest⟩
    imodintro
    have hent : (Pipeline.arrBufs (Ix := Unit) (Name := ℕ) (U := UR sig nD τ) (Lvl := ℕ) (cfgs 0).spec c (VT0 m c) : sProp 𝕄)
        ⊢ (pdats m 0 c).arrays ((pdats m 0 c).arrAt · 0) := arrays0_entry (VT0 m) c
    isplitl [Ha]; · iapply hent; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (0 : Fin 2) winFacts₀0.arr_unscoped c (VT1 m c)
    rw [Pipeline.unscopedBufs_held] at hsplit
    have hjoin : iprop((pdats m 0 c).arrays ((pdats m 0 c).arrAt · cfg0.N)
          ∗ Pipeline.unscopedRest (Ix := Unit) (Name := ℕ) (U := UR sig nD τ) (Lvl := ℕ) spec0 c (VT0 m c))
        ⊢ (StableHlo.held (c : Thread nD τ) (Pipeline.ucRefs τ sig) (W1 m c) : sProp 𝕄) := by
      rw [hsplit]
      exact BIClass.sep_mono (arrays0_exit (VT0 m) (VT1 m) c (W1_of_ne m c main_arg1 (by decide)) (W1_v0 m c)) (BIBase.Entails.of_eq (rest0_eq m c).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents the first left, left with the block sums at `D1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VT1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VT1 m c)
  hentry c := by
    rw [Pipeline.ownSems0_none]
    have hsplit := Pipeline.unscopedBufs_split₀ (Ix := Unit) (Name := ℕ) (U := UR sig nD τ) (Lvl := ℕ) (Val := Elt F) cfgs (1 : Fin 2) winFacts₀1.arr_unscoped c (VT1 m c)
    rw [Pipeline.unscopedBufs_held] at hsplit
    iintro ⟨⟨Hub, Hp, HO⟩, -, -⟩
    have hs' := BIBase.Entails.of_eq hsplit
    ihave H := hs' $$ Hub
    icases H with ⟨Ha, Hrest⟩
    imodintro
    have hent : (Pipeline.arrBufs (Ix := Unit) (Name := ℕ) (U := UR sig nD τ) (Lvl := ℕ) (cfgs 1).spec c (VT1 m c) : sProp 𝕄)
        ⊢ (pdats m 1 c).arrays ((pdats m 1 c).arrAt · 0) := arrays1_entry (VT1 m) c
    isplitl [Ha]; · iapply hent; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (1 : Fin 2) winFacts₀1.arr_unscoped c (VT2 m c)
    rw [Pipeline.unscopedBufs_held] at hsplit
    have hjoin : iprop((pdats m 1 c).arrays ((pdats m 1 c).arrAt · cfg1.N)
          ∗ Pipeline.unscopedRest (Ix := Unit) (Name := ℕ) (U := UR sig nD τ) (Lvl := ℕ) spec1 c (VT1 m c))
        ⊢ (StableHlo.held (c : Thread nD τ) (Pipeline.ucRefs τ sig) (W2 m c) : sProp 𝕄) := by
      rw [hsplit]
      exact BIClass.sep_mono (arrays1_exit (VT1 m) (VT2 m) c (W2_of_ne m c main_arg0 (by decide)) (W2_of_ne m c main_v0 (by decide)) (W2_v1 m c)) (BIBase.Entails.of_eq (rest1_eq m c).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)),
    .host (hseg hostOps2_3 hostOps2_3_sub hostOps2_3_fresh (W5 m)),
    .host (hseg hostOps2_4 hostOps2_4_sub hostOps2_4_fresh (W6 m)),
    .host (hseg hostOps2_5 hostOps2_5_sub hostOps2_5_fresh (W7 m)),
    .host (hseg hostOps2_6 hostOps2_6_sub hostOps2_6_fresh (W8 m)) ]

set_option backward.isDefEq.respectTransparency.types false in
/-- THE RUN: from any memory with zero counters every weakly fair execution terminates, nothing faulting, and the final
    memory holds every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := fun c => ⟨.rfl, .rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W9_main_arg0 m c), (h c _ (mem_uc main_arg1 (by decide))).trans (W9_main_arg1 m c)⟩) (run_all m ρ)

end Run

end Cert.KernelIdeal.Hand

end
-- ==== Proof.K.R0.lean ====
/-
  The first kernel region: the pairwise distance matrix of the sentence rows, tile by tile.

  Each grid point (r, c) of the 4 × 4 grid reads row tile r and row tile c of the one sentence array (two windows onto
  the same array, each holding half of the read permission) and overwrites the 256 × 256 output tile (r, c) with one
  store of a pure function of the two tiles. This module states what the output's staging buffer holds after the body
  at every point, proves the body's triple, and discharges the pipeline's per-point obligation.
-/
import proofs.«136828_j84619445666637_1_alg».proof.Proof.Gen.Kernel.Launch
import proofs.«136828_j84619445666637_1_alg».proof.Proof.Gen.Kernel.Skeleton
import proofs.«136828_j84619445666637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The column-tile window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole input tile and the whole output tile, as rectangles. -/
abbrev rIn0 : Rect S256x1024 := Rect.unit (s := S256x1024) ![0, 0] S256x1024.size inb_S256x1024_S256x1024_0_0
abbrev rOut0 : Rect S256x256 := Rect.unit (s := S256x256) ![0, 0] S256x256.size inb_S256x256_S256x256_0_0

/-- The output tile after the body: its one store, of the distance function of the two input tiles. -/
def out0_2 (x0 x1 : Vec F S256x1024 .f32) : Vec F S256x256 .f32 :=
  View.canon [⟨rOut0, k0_pay1 (View.ld x0 rIn0) (View.ld x1 rIn0)⟩]

/-- The one store covers the tile. -/
theorem cover0_2 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

set_option maxHeartbeats 1000000 in
/-- The body on whole staging buffers: the two input tiles are read and kept, the output tile ends at `out0_2`. -/
theorem sound_kernel0 (c : Dev nD) (E : Set ℕ) (i : grid0.Coords) (arg2 : Memref sig .tc .vmem S256x1024 .f32) (harg2 : arg2.IsWhole)
    (arg3 : Memref sig .tc .vmem S256x1024 .f32) (harg3 : arg3.IsWhole) (arg4 : Memref sig .tc .vmem S256x256 .f32) (harg4 : arg4.IsWhole)
    (x0 x1 : Vec F S256x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input window
    at its block and the output window at `out0_2` of the two blocks; the two windows onto the sentence array hold
    the two halves of its read permission. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Run.lean ====
/-
  The second kernel region: the tiled sum of squared distance differences.

  The grid is 2 × 32 × 2: row tile r, slice i, column tile c, visited in that order. A point reads row tile r and row
  tile c of slice i (two windows onto the one array of slices, each with half of its read permission) and tile (r, c)
  of the distance matrix the first region wrote, and adds one number to every entry of row tile r's 8 × 128 output
  block; the first visit of a row tile (i = 0 and c = 0) first resets the block to zero. The block is written back after
  the last visit of its row tile. This module proves the body's triple in both cases, says what the block holds after
  every point by recursion on the point, and discharges the pipeline's per-point obligation.
-/
import proofs.«136828_j84619445666637_1_alg».proof.Proof.Gen.Kernel.Launch
import proofs.«136828_j84619445666637_1_alg».proof.Proof.Gen.Kernel.Skeleton
import proofs.«136828_j84619445666637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's reset condition from the grid coordinates: slice 0 and column tile 0. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first visit of each row tile. -/
theorem hcond1_0 : ∀ t : Fin cfg1.N, cond1_0 (grid1.coords t) ↔ t.val % 64 = 0 :=
  (by decide +kernel : ∀ t : Fin grid1.N, cond1_0 (grid1.coords t) ↔ t.val % 64 = 0)

/-- One staging buffer of the output window, through which its contents are stated. -/
abbrev VO1_3 : View sig .tc .vmem S1x8x128 .f32 := (Memref.whole cc1_stg3_0 : Memref sig .tc .vmem S1x8x128 .f32).view
/-- Each window's current staging memref at point `t`, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x128 .f32 := win1_3.stage (cfg1.slots t 3)
abbrev hs1_3 (t : Fin cfg1.N) : (ms1_3 t).IsWhole := hstage1_3 ((cfg1.slots t 3).cast nbuf1_3)

set_option maxHeartbeats 2000000 in
/-- The body at a first visit (the reset is taken): the pieces its stores leave in the output block, with the proof that
    on whole staging memrefs — the inputs at their contents, the output at anything — it runs to the continuation with
    the inputs kept and those pieces written. -/
noncomputable def kernelRun1_A (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) :
    { L3 : List (View.Piece (Elt F) S1x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__sentence_kernel i arg3 harg3 arg4 harg4 arg5 harg5 arg6 harg6) K } := by
  refine ⟨?_, fun E K => ?run⟩
  case run =>
    simp only [cc1__sentence_kernel_eq_skeleton]; unfold cc1__sentence_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 2000000 in
/-- The body at a later visit (no reset): the output block enters at its running contents `xo3`. -/
noncomputable def kernelRun1_B (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) :
    { L3 : List (View.Piece (Elt F) S1x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo3
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__sentence_kernel i arg3 harg3 arg4 harg4 arg5 harg5 arg6 harg6) K } := by
  refine ⟨?_, fun E K => ?run⟩
  case run =>
    simp only [cc1__sentence_kernel_eq_skeleton]; unfold cc1__sentence_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Region1

end Cert.Kernel.Hand

end
-- ==== Proof.K.R1.lean ====
/-
  The second kernel region, continued: what the output block holds after every point, the proof data, and the
  pipeline's per-point obligation.

  After the first visit of a row tile the block holds that visit's result over a block reset to zero; after any later
  visit it holds that visit's result over what the visit before left — the block is not written back in between, only
  after the 64th visit of its row tile.
-/
import proofs.«136828_j84619445666637_1_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- At a first visit the pieces tile the output block, so they cover it. -/
theorem cover1_A_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) (y : S1x8x128.Idx) :
    ∃ pc ∈ (kernelRun1_A c i arg3 harg3 arg4 harg4 arg5 harg5 arg6 harg6 hc0 x0 x1 x2).1, y ∈ pc.1.set :=
  View.cover_of_tiledL (kernelRun1_A c i arg3 harg3 arg4 harg4 arg5 harg5 arg6 harg6 hc0 x0 x1 x2).1 S1x8x128.size (by sl_kernel_rfl) y

/-- What a first visit leaves in the output block: its pieces read back. -/
def out1_A_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : cond1_0 i)
    (x0 x1 : Vec F S1x512x1024 .f32) (x2 : Vec F S512x512 .f32) : Vec F S1x8x128 .f32 :=
  VO1_3.read (Elt F) (VO1_3.writes (Elt F) VO1_3.junk (kernelRun1_A c i arg3 harg3 arg4 harg4 arg5 harg5 arg6 harg6 hc0 x0 x1 x2).1)

/-- At a later visit the pieces tile the output block too. -/
theorem cover1_B_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) (y : S1x8x128.Idx) :
    ∃ pc ∈ (kernelRun1_B c i arg3 harg3 arg4 harg4 arg5 harg5 arg6 harg6 hc0 x0 x1 x2 xo3).1, y ∈ pc.1.set :=
  View.cover_of_tiledL (kernelRun1_B c i arg3 harg3 arg4 harg4 arg5 harg5 arg6 harg6 hc0 x0 x1 x2 xo3).1 S1x8x128.size (by sl_kernel_rfl) y

/-- What a later visit leaves in the output block, entered at `xo3`. -/
def out1_B_3 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S512x512 .f32) (harg5 : arg5.IsWhole)
    (arg6 : Memref sig .tc .vmem S1x8x128 .f32) (harg6 : arg6.IsWhole) (hc0 : ¬cond1_0 i)
    (x0 x1 : Vec F S1x512x1024 .f32) (x2 : Vec F S512x512 .f32) (xo3 : Vec F S1x8x128 .f32) : Vec F S1x8x128 .f32 :=
  VO1_3.read (Elt F) (VO1_3.writes (Elt F) VO1_3.junk (kernelRun1_B c i arg3 harg3 arg4 harg4 arg5 harg5 arg6 harg6 hc0 x0 x1 x2 xo3).1)

/-- The accumulation: what the output block holds after the body at position `n`. -/
def outsAt1 (c : Dev nD) : (n : ℕ) → n < cfg1.N → Vec F S1x8x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 64 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (iblk1 V c 0 ⟨n + 1, hn⟩) (iblk1 V c 1 ⟨n + 1, hn⟩) (iblk1 V c 2 ⟨n + 1, hn⟩)
        (outsAt1 c n (Nat.lt_of_succ_lt hn))

/-- At a first visit: that visit's contents. -/
theorem outsAt1_A (c : Dev nD) (t : Fin cfg1.N) (h0 : t.val % 64 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t) := by
  obtain ⟨n, hn⟩ := t
  cases n with
  | zero => exact rfl
  | succ n => exact (dif_pos h0).trans rfl

/-- At a later visit: that visit's contents over what the visit before left. -/
theorem outsAt1_B (c : Dev nD) (t : Fin cfg1.N) (h0 : ¬t.val % 64 = 0) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the region on core `c`: the arrays as the region finds them; after the body each input window
    at its block and the output block at `outsAt1`; the two windows onto the array of slices hold the two halves of
    its read permission. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨0, _⟩ => PosShare.left fullShare
    | ⟨1, _⟩ => PosShare.right fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later visit the output block's current staging buffer holds what the body left at the point before: it was
    not written back in between. -/
theorem before1_3_B (c : Dev nD) (t : Fin cfg1.N) (h0 : ¬t.val % 64 = 0) (d) :
    (dat1 V c).before 3 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the point is a first visit or a later one; at a
    later one the output block holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 128 := lt_of_lt_of_eq t.isLt (show cfg1.N = 128 from N_1)
  by_cases h0 : t.val % 64 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program as a run of segments: the first kernel region, the second kernel region, then the host operations
  that follow them.

  Between two segments the core holds every unscoped buffer whole at known contents: the launch contents; then with the
  distance matrix at what the first region's write-backs leave; then with the block sums at what the second region's
  write-backs leave; then each host stretch applied in turn. Each region splits its windows' arrays out of those buffers
  on entry — an array two input windows read is shared between them half and half — and puts them back on exit at the
  contents the pipeline computes. The run ends with every unscoped buffer read off the last contents.
-/
import proofs.«136828_j84619445666637_1_alg».proof.Proof.K.R0
import proofs.«136828_j84619445666637_1_alg».proof.Proof.K.R1
import proofs.«136828_j84619445666637_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The shared arrays: the buffers behind a region's arrays against the windows' arrays -/

section Shares

variable (V V' : (c : Dev nD) → (b : Ref sig .tc) → Buf (Elt F) ((c : Thread nD τ).loc b))

/-- A conjunction over two (three) listed buffers, one by one. -/
theorem bigSep_two {M : Type} [URA M] {I : Type} [DecidableEq I] (a b : I) (h : a ∉ ({b} : Finset I)) (Φ : I → sProp M) :
    bigSep ({a, b} : Finset I) Φ = iprop(Φ a ∗ Φ b) := by
  rw [bigSep_insert h, bigSep_singleton]; rfl
theorem bigSep_three {M : Type} [URA M] {I : Type} [DecidableEq I] (a b d : I) (h : a ∉ ({b, d} : Finset I)) (h' : b ∉ ({d} : Finset I)) (Φ : I → sProp M) :
    bigSep ({a, b, d} : Finset I) Φ = iprop(Φ a ∗ Φ b ∗ Φ d) := by
  rw [bigSep_insert h, bigSep_insert h', bigSep_singleton]; rfl

theorem img0 : Finset.univ.image (Pipeline.arrRef spec0) = {main_arg1, main_v0} := by decide
theorem img1 : Finset.univ.image (Pipeline.arrRef spec1) = {main_arg0, main_v0, main_v1} := by decide

/-- Region 0, entry: the sentence array's buffer, split half and half between the two windows that read it, and the
    distance matrix's buffer are the three windows' arrays at their entry contents. -/
theorem arrays0_entry (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [img0, bigSep_W0, bigSep_two _ _ (by decide)]
  rw [(arr_whole0 0).set_eq_univ, (arr_whole0 2).set_eq_univ]
  iintro ⟨Ha, Ho⟩
  ihave Ha' := (pointsTo_share (PosShare.mem_left_op_right fullShare)).1 $$ Ha
  icases Ha' with ⟨Hl, Hr⟩
  isplitl [Hl]; · iexact Hl
  isplitl [Hr]; · iexact Hr
  iexact Ho

/-- Region 0, exit: the two halves of the sentence array, unchanged, rejoin; the distance matrix's buffer holds what
    the write-backs left. -/
theorem arrays0_exit (c : Dev nD) (hin : V' c main_arg1 = V c main_arg1) (hout : V' c main_v0 = (dat0 V c).arrAt 2 cfg0.N) :
    (dat0 V c).arrays ((dat0 V c).arrAt · cfg0.N) ⊢ (Pipeline.arrBufs (Ix := Unit) (Name := ℕ) (U := UR sig nD τ) (Lvl := ℕ) spec0 c (V' c) : sProp 𝕄) := by
  unfold Pipeline.arrBufs Dat.arrays
  rw [img0, bigSep_W0, bigSep_two _ _ (by decide)]
  rw [(arr_whole0 0).set_eq_univ, (arr_whole0 2).set_eq_univ]
  beta_reduce
  rw [(dat0 V c).arrAt_in 0 rfl _, (dat0 V c).arrAt_in 1 rfl _, A_eq0, A_eq0, hin, hout]
  iintro ⟨Hl, Hr, Ho⟩
  isplitl [Hl Hr]
  · iapply (pointsTo_share (PosShare.mem_left_op_right fullShare)).2
    isplitl [Hl]; · iexact Hl
    iexact Hr
  iexact Ho

/-- Region 1, entry: the array of slices, split half and half between the two windows that read it, the distance
    matrix and the block sums are the four windows' arrays at their entry contents. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [img1, bigSep_W1, bigSep_three _ _ _ (by decide) (by decide)]
  rw [(arr_whole1 0).set_eq_univ, (arr_whole1 2).set_eq_univ, (arr_whole1 3).set_eq_univ]
  iintro ⟨Ha, Hd, Ho⟩
  ihave Ha' := (pointsTo_share (PosShare.mem_left_op_right fullShare)).1 $$ Ha
  icases Ha' with ⟨Hl, Hr⟩
  isplitl [Hl]; · iexact Hl
  isplitl [Hr]; · iexact Hr
  isplitl [Hd]; · iexact Hd
  iexact Ho

/-- Region 1, exit. -/
theorem arrays1_exit (c : Dev nD) (hin0 : V' c main_arg0 = V c main_arg0) (hin2 : V' c main_v0 = V c main_v0)
    (hout : V' c main_v1 = (dat1 V c).arrAt 3 cfg1.N) :
    (dat1 V c).arrays ((dat1 V c).arrAt · cfg1.N) ⊢ (Pipeline.arrBufs (Ix := Unit) (Name := ℕ) (U := UR sig nD τ) (Lvl := ℕ) spec1 c (V' c) : sProp 𝕄) := by
  unfold Pipeline.arrBufs Dat.arrays
  rw [img1, bigSep_W1, bigSep_three _ _ _ (by decide) (by decide)]
  rw [(arr_whole1 0).set_eq_univ, (arr_whole1 2).set_eq_univ, (arr_whole1 3).set_eq_univ]
  beta_reduce
  rw [(dat1 V c).arrAt_in 0 rfl _, (dat1 V c).arrAt_in 1 rfl _, (dat1 V c).arrAt_in 2 rfl _, A_eq1, A_eq1, A_eq1, hin0, hin2, hout]
  iintro ⟨Hl, Hr, Hd, Ho⟩
  isplitl [Hl Hr]
  · iapply (pointsTo_share (PosShare.mem_left_op_right fullShare)).2
    isplitl [Hl]; · iexact Hl
    iexact Hr
  isplitl [Hd]; · iexact Hd
  iexact Ho

end Shares

/-! ## The buffers' contents at each segment boundary -/

section Run

variable (m : (ℓ : Loc nD τ sig) → Buf (Elt F) ℓ) (ρ : Dev nD → PrngReg)

/-- Core `c`'s unscoped buffers at launch. -/
abbrev W0 (c : Dev nD) : Valuation τ sig (Elt F) := fun b => m (c, b)
abbrev VT0 : (c : Dev nD) → (b : Ref sig .tc) → Buf (Elt F) ((c : Thread nD τ).loc b) := fun c b => W0 m c b
/-- What the first region's write-backs leave in the distance matrix. -/
def D0 (c : Dev nD) : Buf (Elt F) ((c : Thread nD τ).loc main_v0) := (dat0 (VT0 m) c).arrAt 2 cfg0.N
/-- After the first region. -/
def W1 (c : Dev nD) : Valuation τ sig (Elt F) := Function.update (W0 m c) main_v0 (D0 m c)
abbrev VT1 : (c : Dev nD) → (b : Ref sig .tc) → Buf (Elt F) ((c : Thread nD τ).loc b) := fun c b => W1 m c b
/-- What the second region's write-backs leave in the block sums. -/
def D1 (c : Dev nD) : Buf (Elt F) ((c : Thread nD τ).loc main_v1) := (dat1 (VT1 m) c).arrAt 3 cfg1.N
/-- After the second region. -/
def W2 (c : Dev nD) : Valuation τ sig (Elt F) := Function.update (W1 m c) main_v1 (D1 m c)
abbrev VT2 : (c : Dev nD) → (b : Ref sig .tc) → Buf (Elt F) ((c : Thread nD τ).loc b) := fun c b => W2 m c b
/-- After each host stretch. -/
abbrev W3 (c : Dev nD) : Valuation τ sig (Elt F) := StableHlo.after hostOps2 (W2 m c)
abbrev W4 (c : Dev nD) : Valuation τ sig (Elt F) := StableHlo.after hostOps2_1 (W3 m c)
abbrev W5 (c : Dev nD) : Valuation τ sig (Elt F) := StableHlo.after hostOps2_2 (W4 m c)
abbrev W6 (c : Dev nD) : Valuation τ sig (Elt F) := StableHlo.after hostOps2_3 (W5 m c)
abbrev W7 (c : Dev nD) : Valuation τ sig (Elt F) := StableHlo.after hostOps2_4 (W6 m c)
abbrev W8 (c : Dev nD) : Valuation τ sig (Elt F) := StableHlo.after hostOps2_5 (W7 m c)
abbrev W9 (c : Dev nD) : Valuation τ sig (Elt F) := StableHlo.after hostOps2_6 (W8 m c)

theorem W1_v0 (c : Dev nD) : W1 m c main_v0 = D0 m c := by unfold W1; exact Function.update_self _ _ _
theorem W1_of_ne (c : Dev nD) (r : Ref sig .tc) (h : r ≠ main_v0) : W1 m c r = W0 m c r := by
  unfold W1; exact Function.update_of_ne (StableHlo.devRef_ne_of_ne h) _ _
theorem W2_v1 (c : Dev nD) : W2 m c main_v1 = D1 m c := by unfold W2; exact Function.update_self _ _ _
theorem W2_of_ne (c : Dev nD) (r : Ref sig .tc) (h : r ≠ main_v1) : W2 m c r = W1 m c r := by
  unfold W2; exact Function.update_of_ne (StableHlo.devRef_ne_of_ne h) _ _

/-- No segment writes an argument. -/
theorem W9_of_arg (c : Dev nD) (r : Ref sig .tc) (h3 : r ∉ hostOps2_W) (h4 : r ∉ hostOps2_1_W) (h5 : r ∉ hostOps2_2_W) (h6 : r ∉ hostOps2_3_W)
    (h7 : r ∉ hostOps2_4_W) (h8 : r ∉ hostOps2_5_W) (h9 : r ∉ hostOps2_6_W) : W9 m c r = W2 m c r :=
  (StableHlo.after_of_writes_sub hostOps2_6 _ hostOps2_6_writes h9).trans <|
  (StableHlo.after_of_writes_sub hostOps2_5 _ hostOps2_5_writes h8).trans <|
  (StableHlo.after_of_writes_sub hostOps2_4 _ hostOps2_4_writes h7).trans <|
  (StableHlo.after_of_writes_sub hostOps2_3 _ hostOps2_3_writes h6).trans <|
  (StableHlo.after_of_writes_sub hostOps2_2 _ hostOps2_2_writes h5).trans <|
  (StableHlo.after_of_writes_sub hostOps2_1 _ hostOps2_1_writes h4).trans <|
  (StableHlo.after_of_writes_sub hostOps2 _ hostOps2_writes h3)

theorem W9_main_arg0 (c : Dev nD) : W9 m c main_arg0 = m ((c : Thread nD τ).loc main_arg0) :=
  (W9_of_arg m c main_arg0 (by decide) (by decide) (by decide) (by decide) (by decide) (by decide) (by decide)).trans <|
    (W2_of_ne m c main_arg0 (by decide)).trans <| (W1_of_ne m c main_arg0 (by decide)).trans rfl
theorem W9_main_arg1 (c : Dev nD) : W9 m c main_arg1 = m ((c : Thread nD τ).loc main_arg1) :=
  (W9_of_arg m c main_arg1 (by decide) (by decide) (by decide) (by decide) (by decide) (by decide) (by decide)).trans <|
    (W2_of_ne m c main_arg1 (by decide)).trans <| (W1_of_ne m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VT0 m) c
  | ⟨1, _⟩ => fun c => dat1 (VT1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Off region 0's arrays the contents after it are the contents before it. -/
theorem rest0_eq (c : Dev nD) :
    (Pipeline.unscopedRest (Ix := Unit) (Name := ℕ) (U := UR sig nD τ) (Lvl := ℕ) spec0 c (VT1 m c) : sProp 𝕄)
      = Pipeline.unscopedRest (Ix := Unit) (Name := ℕ) (U := UR sig nD τ) (Lvl := ℕ) spec0 c (VT0 m c) := by
  unfold Pipeline.unscopedRest
  exact bigSep_congr fun b hb => by
    rw [show VT1 m c b = VT0 m c b from W1_of_ne m c b fun e => (Finset.mem_sdiff.mp hb).2 (e ▸ Finset.mem_image.mpr ⟨2, Finset.mem_univ _, rfl⟩)]
/-- Off region 1's arrays likewise. -/
theorem rest1_eq (c : Dev nD) :
    (Pipeline.unscopedRest (Ix := Unit) (Name := ℕ) (U := UR sig nD τ) (Lvl := ℕ) spec1 c (VT2 m c) : sProp 𝕄)
      = Pipeline.unscopedRest (Ix := Unit) (Name := ℕ) (U := UR sig nD τ) (Lvl := ℕ) spec1 c (VT1 m c) := by
  unfold Pipeline.unscopedRest
  exact bigSep_congr fun b hb => by
    rw [show VT2 m c b = VT1 m c b from W2_of_ne m c b fun e => (Finset.mem_sdiff.mp hb).2 (e ▸ Finset.mem_image.mpr ⟨3, Finset.mem_univ _, rfl⟩)]

/-! ## The regions as segments -/

set_option backward.isDefEq.respectTransparency.types false in
/-- The first region: entered from the launch contents, left with the distance matrix at `D0`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VT0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VT0 m c)
  hentry c := by
    rw [Pipeline.ownSems0_none]
    have hsplit := Pipeline.unscopedBufs_split₀ (Ix := Unit) (Name := ℕ) (U := UR sig nD τ) (Lvl := ℕ) (Val := Elt F) cfgs (0 : Fin 2) winFacts₀0.arr_unscoped c (VT0 m c)
    rw [Pipeline.unscopedBufs_held] at hsplit
    iintro ⟨⟨Hub, Hp, HO⟩, -, -⟩
    have hs' := BIBase.Entails.of_eq hsplit
    ihave H := hs' $$ Hub
    icases H with ⟨Ha, Hrest⟩
    imodintro
    have hent : (Pipeline.arrBufs (Ix := Unit) (Name := ℕ) (U := UR sig nD τ) (Lvl := ℕ) (cfgs 0).spec c (VT0 m c) : sProp 𝕄)
        ⊢ (pdats m 0 c).arrays ((pdats m 0 c).arrAt · 0) := arrays0_entry (VT0 m) c
    isplitl [Ha]; · iapply hent; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (0 : Fin 2) winFacts₀0.arr_unscoped c (VT1 m c)
    rw [Pipeline.unscopedBufs_held] at hsplit
    have hjoin : iprop((pdats m 0 c).arrays ((pdats m 0 c).arrAt · cfg0.N)
          ∗ Pipeline.unscopedRest (Ix := Unit) (Name := ℕ) (U := UR sig nD τ) (Lvl := ℕ) spec0 c (VT0 m c))
        ⊢ (StableHlo.held (c : Thread nD τ) (Pipeline.ucRefs τ sig) (W1 m c) : sProp 𝕄) := by
      rw [hsplit]
      exact BIClass.sep_mono (arrays0_exit (VT0 m) (VT1 m) c (W1_of_ne m c main_arg1 (by decide)) (W1_v0 m c)) (BIBase.Entails.of_eq (rest0_eq m c).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents the first left, left with the block sums at `D1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VT1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VT1 m c)
  hentry c := by
    rw [Pipeline.ownSems0_none]
    have hsplit := Pipeline.unscopedBufs_split₀ (Ix := Unit) (Name := ℕ) (U := UR sig nD τ) (Lvl := ℕ) (Val := Elt F) cfgs (1 : Fin 2) winFacts₀1.arr_unscoped c (VT1 m c)
    rw [Pipeline.unscopedBufs_held] at hsplit
    iintro ⟨⟨Hub, Hp, HO⟩, -, -⟩
    have hs' := BIBase.Entails.of_eq hsplit
    ihave H := hs' $$ Hub
    icases H with ⟨Ha, Hrest⟩
    imodintro
    have hent : (Pipeline.arrBufs (Ix := Unit) (Name := ℕ) (U := UR sig nD τ) (Lvl := ℕ) (cfgs 1).spec c (VT1 m c) : sProp 𝕄)
        ⊢ (pdats m 1 c).arrays ((pdats m 1 c).arrAt · 0) := arrays1_entry (VT1 m) c
    isplitl [Ha]; · iapply hent; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (1 : Fin 2) winFacts₀1.arr_unscoped c (VT2 m c)
    rw [Pipeline.unscopedBufs_held] at hsplit
    have hjoin : iprop((pdats m 1 c).arrays ((pdats m 1 c).arrAt · cfg1.N)
          ∗ Pipeline.unscopedRest (Ix := Unit) (Name := ℕ) (U := UR sig nD τ) (Lvl := ℕ) spec1 c (VT1 m c))
        ⊢ (StableHlo.held (c : Thread nD τ) (Pipeline.ucRefs τ sig) (W2 m c) : sProp 𝕄) := by
      rw [hsplit]
      exact BIClass.sep_mono (arrays1_exit (VT1 m) (VT2 m) c (W2_of_ne m c main_arg0 (by decide)) (W2_of_ne m c main_v0 (by decide)) (W2_v1 m c)) (BIBase.Entails.of_eq (rest1_eq m c).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)),
    .host (hseg hostOps2_3 hostOps2_3_sub hostOps2_3_fresh (W5 m)),
    .host (hseg hostOps2_4 hostOps2_4_sub hostOps2_4_fresh (W6 m)),
    .host (hseg hostOps2_5 hostOps2_5_sub hostOps2_5_fresh (W7 m)),
    .host (hseg hostOps2_6 hostOps2_6_sub hostOps2_6_fresh (W8 m)) ]

set_option backward.isDefEq.respectTransparency.types false in
/-- THE RUN: from any memory with zero counters every weakly fair execution terminates, nothing faulting, and the final
    memory holds every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := fun c => ⟨.rfl, .rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W9_main_arg0 m c), (h c _ (mem_uc main_arg1 (by decide))).trans (W9_main_arg1 m c)⟩) (run_all m ρ)

end Run

end Cert.Kernel.Hand

end
-- ==== Proof.Spec.lean ====
/-
  The mathematics both programs compute, over the extended reals.

  For rows a, b of 1024 numbers, `dist a b` is the smoothed Euclidean distance
  sqrt (max (|a|² + |b|² − 2·⟨a, b⟩) 0 + ε); `sqdiff u v` is (u − v)². The sentence term sums, over the 32 slices
  n and all pairs (p, q) of the 1024 rows, the squared difference between the distance of rows p, q of slice n and the
  distance of rows p, q of the sentence matrix. `acc` is the same total as the tiled program accumulates it: row tile
  r ∈ {0, 1} visits the 64 pairs (slice i, column tile c) in order and adds each tile's sum divided by 1024 to a running
  value that starts at zero.
-/
import Idealize.ShloMosaic.PureOps.Ideal
import Idealize.ShloMosaic.Lib.ValueIdx

noncomputable section

namespace Cert.Spec

open Idealize.ShloMosaic

/-- The smoothing constant ε, as the shared 32-bit pattern denotes it. -/
def eps : EReal := Ideal.ofBits .f32 0x2B8CBCCC#32
/-- The factor 2 of the cross term. -/
def two : EReal := Ideal.ofBits .f32 0x40000000#32
/-- The divisor 1024 of each tile's contribution. -/
def c1024 : EReal := Ideal.ofBits .f32 0x44800000#32

/-- The smoothed distance of two rows. -/
def dist (a b : Fin 1024 → EReal) : EReal :=
  Ideal.sqrt (max ((∑ k, a k * a k) + (∑ k, b k * b k) - two * (∑ k, a k * b k)) 0 + eps)

/-- The squared difference. -/
def sqdiff (u v : EReal) : EReal := (u - v) * (u - v)

/-- The summand of the sentence term at slice `n`, rows `p`, `q`. -/
def term (x : Fin 32 → Fin 1024 → Fin 1024 → EReal) (e : Fin 1024 → Fin 1024 → EReal) (n : Fin 32) (p q : Fin 1024) : EReal :=
  sqdiff (dist (x n p) (x n q)) (dist (e p) (e q))

/-- The sentence total: every slice, every pair of rows. -/
def total (x : Fin 32 → Fin 1024 → Fin 1024 → EReal) (e : Fin 1024 → Fin 1024 → EReal) : EReal :=
  ∑ n : Fin 32, ∑ p : Fin 1024, ∑ q : Fin 1024, term x e n p q

/-- Row `p'` of row tile `r` (tiles of 512 rows). -/
def tileRow (r : Fin 2) (p' : Fin 512) : Fin 1024 := ⟨r.val * 512 + p'.val, by omega⟩

/-- One tile's sum: rows of tile `r` against rows of tile `c`, in slice `i`. -/
def tileSum (T : Fin 32 → Fin 1024 → Fin 1024 → EReal) (r : Fin 2) (i : Fin 32) (c : Fin 2) : EReal :=
  ∑ p' : Fin 512, ∑ q' : Fin 512, T i (tileRow r p') (tileRow c q')

/-- The running value of row tile `r` after its first `k` visits; visit `k` is slice `k / 2`, column tile `k % 2`. -/
def acc (T : Fin 32 → Fin 1024 → Fin 1024 → EReal) (r : Fin 2) : ℕ → EReal
  | 0 => 0
  | k + 1 => acc T r k + Ideal.div (tileSum T r ⟨(k / 2) % 32, Nat.mod_lt _ (by decide)⟩ ⟨k % 2, Nat.mod_lt _ (by decide)⟩) c1024

end Cert.Spec

end
-- ==== Proof.PayValue.lean ====
/-
  The kernel bodies' arithmetic read at an index, at the ideal values (floats are extended reals).

  Each body computes, per output entry (p, q), |row p|² + |row q|² − 2·⟨row p, row q⟩, clamps it at zero, adds ε and
  takes the square root. The squared norms are lane sums of the squared block, laid out as a column (rows) or, transposed,
  as a row (columns), and broadcast over the tile; the inner products are one matrix product contracting the lane axis
  of both operands into a zero accumulator. The sentence body subtracts the sentence tile, squares, sums every entry,
  divides by 1024 and adds the result to the running block.
-/
import proofs.«136828_j84619445666637_1_alg».proof.Proof.Gen.KernelIdeal.Skeleton
import proofs.«136828_j84619445666637_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Cert.KernelIdeal Cert.KernelIdeal.Gen Idealize.ShloMosaic.ValueIdx

/-! ## The zero block -/

/-- The block stored at the first visit is zero everywhere. -/
theorem k1_pay2_apply (j : S1x8x128.Idx) : Gen.k1_pay2 (F := Ideal) j = 0 := by
  unfold Gen.k1_pay2
  exact Ideal.ofBits_zero_f32

/-! ## The running block's update -/

/-- The one number, laid out [1] → [1,1], divided by 1024, laid out [1,1,1] and broadcast over the [1,8,128] block, is
    added to the loaded block. -/
theorem k1_pay1_apply (v36 : FVec Ideal S1 .f32) (v38 : Vec Ideal S1x8x128 .f32) (a : Fin 8) (b : Fin 128) :
    Gen.k1_pay1 (F := Ideal) v36 v38 (ix3 (0 : Fin 1) a b)
      = v38 (ix3 (0 : Fin 1) a b) + Ideal.div (v36 (ix1 (0 : Fin 1))) Cert.Spec.c1024 := by
  unfold Gen.k1_pay1
  refine (addf_apply _ _ _).trans ?_
  refine congrArg₂ (· + ·) (congrFun (shapeCast_self v38 _) _) ?_
  refine (broadcastTo_apply _ _ _ (ix3 (0 : Fin 1) (0 : Fin 1) (0 : Fin 1)) (fun ax => by
    match ax with
    | ⟨0, _⟩ => rfl
    | ⟨1, _⟩ => rfl
    | ⟨2, _⟩ => rfl)).trans ?_
  refine (shapeCast_ab_1ab_apply _ _ (0 : Fin 1) (0 : Fin 1) (0 : Fin 1)).trans ?_
  refine (divf_apply _ _ _).trans ?_
  exact congrArg₂ Ideal.div (shapeCast_a_1a_apply v36 _ (0 : Fin 1) (0 : Fin 1)) rfl

/-! ## Column layouts: a vector as a column, the column broadcast along the rows

The library reads a leading unit axis and a row broadcast; a lane sum kept as a column needs the trailing unit axis. -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## Sums along one axis of a matrix -/

/-- A lane sum (along axis 1, from zero) of an `[n, m]` matrix reads, at row `p`, the sum of that row. -/
theorem rowSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (p : Fin n) :
    multiReduction (F := Ideal) .add [1] ⟨1, ![n]⟩ src 0x00000000#32 h hφ hacc (ix1 p) = ∑ k : Fin m, src (ix2 p k) := by
  refine (Ideal.multiReduction_add_single src _ h hφ hacc (ix1 p)).trans ?_
  refine Finset.sum_congr rfl fun k _ => ?_
  have e : h.lift (ix1 p) k = ix2 p k := funext fun c => match c with
    | ⟨0, _⟩ => Fin.ext rfl
    | ⟨1, _⟩ => Fin.ext rfl
  exact congrArg src e

/-- A sum along axis 0 (from zero) of an `[n, 1]` column reads, at its one entry, the sum of the column. -/
theorem colSum_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = FKind.add.neutral .f32 hφ) (u : Fin 1) :
    multiReduction (F := Ideal) .add [0] ⟨1, ![1]⟩ src 0x00000000#32 h hφ hacc (ix1 u) = ∑ k : Fin n, src (ix2 k u) := by
  refine (Ideal.multiReduction_add_single src _ h hφ hacc (ix1 u)).trans ?_
  refine Finset.sum_congr rfl fun k _ => ?_
  have e : h.lift (ix1 u) k = ix2 k u := funext fun c => match c with
    | ⟨0, _⟩ => Fin.ext rfl
    | ⟨1, _⟩ => Fin.ext rfl
  exact congrArg src e

/-! ## The matrix product of two blocks along their lanes -/

/-- The dimension numbers of `[n, 1024] × [n, 1024]ᵀ`: both operands contracted on their lane axis. -/
abbrev gramDims (n : ℕ) (w : DotDims.WF ⟨2, ![n, 1024]⟩ ⟨2, ![n, 1024]⟩ ⟨2, ![n, n]⟩ [1] [1] [0] [0] [] []) :
    DotDims ⟨2, ![n, 1024]⟩ ⟨2, ![n, 1024]⟩ ⟨2, ![n, n]⟩ where
  lhsContracting := [1]
  rhsContracting := [1]
  lhsNonContracting := [0]
  rhsNonContracting := [0]
  lhsBatch := []
  rhsBatch := []
  wf := w

section Gram
variable {n : ℕ} (w : DotDims.WF ⟨2, ![n, 1024]⟩ ⟨2, ![n, 1024]⟩ ⟨2, ![n, n]⟩ [1] [1] [0] [0] [] [])

/-- The left operand is read at the output's row … -/
theorem gram_lhs0 (j : (⟨2, ![n, n]⟩ : Shape).Idx) (k : (gramDims n w).contr.Idx) :
    ((gramDims n w).lhsIdx j k 0).val = (j 0).val := by
  unfold DotDims.lhsIdx
  rw [dif_neg (show ¬(0 : Fin (⟨2, ![n, 1024]⟩ : Shape).rank) ∈ (gramDims n w).lhsBatch from List.not_mem_nil),
    dif_pos (show (0 : Fin (⟨2, ![n, 1024]⟩ : Shape).rank) ∈ (gramDims n w).lhsNonContracting from List.mem_singleton.mpr rfl)]
  rfl
/-- … and the contraction position, -/
theorem gram_lhs1 (j : (⟨2, ![n, n]⟩ : Shape).Idx) (k : (gramDims n w).contr.Idx) :
    ((gramDims n w).lhsIdx j k 1).val = (k ⟨0, Nat.one_pos⟩).val :=
  (gramDims n w).lhsIdx_val_of_single rfl j k
/-- the right operand at the output's column … -/
theorem gram_rhs0 (j : (⟨2, ![n, n]⟩ : Shape).Idx) (k : (gramDims n w).contr.Idx) :
    ((gramDims n w).rhsIdx j k 0).val = (j 1).val := by
  unfold DotDims.rhsIdx
  rw [dif_neg (show ¬(0 : Fin (⟨2, ![n, 1024]⟩ : Shape).rank) ∈ (gramDims n w).rhsBatch from List.not_mem_nil),
    dif_pos (show (0 : Fin (⟨2, ![n, 1024]⟩ : Shape).rank) ∈ (gramDims n w).rhsNonContracting from List.mem_singleton.mpr rfl)]
  rfl
/-- … and the contraction position. -/
theorem gram_rhs1 (j : (⟨2, ![n, n]⟩ : Shape).Idx) (k : (gramDims n w).contr.Idx) :
    ((gramDims n w).rhsIdx j k 1).val = (k ⟨0, Nat.one_pos⟩).val :=
  (gramDims n w).rhsIdx_val_of_single rfl j k

/-- The product into a zero accumulator reads, at `(p, q)`, the inner product of row `p` of the left block and row
    `q` of the right one. -/
theorem gram_apply (x y : FVec Ideal ⟨2, ![n, 1024]⟩ .bf16) (p q : Fin n) :
    matmul (F := Ideal) (gramDims n w) none x y (constant (F := Ideal) ⟨2, ![n, n]⟩ .f32 0x00000000#32) (ix2 p q)
      = ∑ k : Fin 1024, x (ix2 p k) * y (ix2 q k) := by
  refine (Ideal.matmul_constant_zero_apply (gramDims n w) none x y (ix2 p q)).trans ?_
  rw [← Equiv.sum_comp (contrEquiv1 (gramDims n w) 1024 rfl rfl).symm]
  refine Finset.sum_congr rfl fun k _ => ?_
  have hk := contrEquiv1_symm_val (gramDims n w) 1024 rfl rfl k
  have el : (gramDims n w).lhsIdx (ix2 p q) ((contrEquiv1 (gramDims n w) 1024 rfl rfl).symm k) = ix2 p k :=
    funext fun a => Fin.ext (by
      match a with
      | ⟨0, _⟩ => exact gram_lhs0 w _ _
      | ⟨1, _⟩ => exact (gram_lhs1 w _ _).trans hk)
  have er : (gramDims n w).rhsIdx (ix2 p q) ((contrEquiv1 (gramDims n w) 1024 rfl rfl).symm k) = ix2 q k :=
    funext fun a => Fin.ext (by
      match a with
      | ⟨0, _⟩ => exact gram_rhs0 w _ _
      | ⟨1, _⟩ => exact (gram_rhs1 w _ _).trans hk)
  rw [el, er]

end Gram

/-! ## One tile of smoothed distances -/

/-- The tile's arithmetic over the column of row norms `R`, the row of column norms `C` and the products `G`:
    `sqrt (max (R + C − 2·G) 0 + ε)`, the column and the row broadcast over the tile. -/
abbrev distTile {n : ℕ} (hb1 : (⟨2, ![n, 1]⟩ : Shape).Broadcasts ⟨2, ![n, n]⟩)
    (hb2 : (⟨2, ![1, n]⟩ : Shape).Broadcasts ⟨2, ![n, n]⟩) (R : FVec Ideal ⟨2, ![n, 1]⟩ .f32)
    (C : FVec Ideal ⟨2, ![1, n]⟩ .f32) (G : FVec Ideal ⟨2, ![n, n]⟩ .f32) : FVec Ideal ⟨2, ![n, n]⟩ .f32 :=
  sqrt (addf (maximumf (subf (addf (broadcastTo ⟨2, ![n, n]⟩ R hb1) (broadcastTo ⟨2, ![n, n]⟩ C hb2))
      (mulf (broadcast ⟨2, ![n, n]⟩ (Scalar.ofBits (F := Ideal) .f32 0x40000000#32)) G))
    (broadcast ⟨2, ![n, n]⟩ (Scalar.ofBits (F := Ideal) .f32 0x00000000#32)))
    (broadcast ⟨2, ![n, n]⟩ (Scalar.ofBits (F := Ideal) .f32 0x2B8CBCCC#32)))

/-- The tile at `(p, q)`. -/
theorem distTile_apply {n : ℕ} (hb1 : (⟨2, ![n, 1]⟩ : Shape).Broadcasts ⟨2, ![n, n]⟩)
    (hb2 : (⟨2, ![1, n]⟩ : Shape).Broadcasts ⟨2, ![n, n]⟩) (R : FVec Ideal ⟨2, ![n, 1]⟩ .f32)
    (C : FVec Ideal ⟨2, ![1, n]⟩ .f32) (G : FVec Ideal ⟨2, ![n, n]⟩ .f32) (p q : Fin n) :
    distTile hb1 hb2 R C G (ix2 p q)
      = Ideal.sqrt (max (R (ix2 p (0 : Fin 1)) + C (ix2 (0 : Fin 1) q) - Cert.Spec.two * G (ix2 p q)) 0 + Cert.Spec.eps) := by
  show Ideal.sqrt (max (broadcastTo ⟨2, ![n, n]⟩ R hb1 (ix2 p q) + broadcastTo ⟨2, ![n, n]⟩ C hb2 (ix2 p q)
      - Ideal.ofBits .f32 0x40000000#32 * G (ix2 p q)) (Ideal.ofBits .f32 0x00000000#32) + Ideal.ofBits .f32 0x2B8CBCCC#32) = _
  rw [broadcastTo_a1_ab_apply, broadcastTo_1b_ab_apply, Ideal.ofBits_zero_f32]
  rfl

/-- The tile of two blocks `x`, `y` of `n` rows of 1024 numbers, as both bodies compute it: the row norms are lane sums
    of the squared blocks laid out as columns, `y`'s transposed to a row; the products one matrix product of the blocks
    (rounded to the narrower format, which changes nothing here) into zero. At `(p, q)` it is the smoothed distance
    of row `p` of `x` and row `q` of `y`. -/
theorem distTile_blocks_apply {n : ℕ} (hb1 : (⟨2, ![n, 1]⟩ : Shape).Broadcasts ⟨2, ![n, n]⟩)
    (hb2 : (⟨2, ![1, n]⟩ : Shape).Broadcasts ⟨2, ![n, n]⟩)
    (hr : (⟨2, ![n, 1024]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (ht : (⟨2, ![n, 1]⟩ : Shape).Transposes [1, 0] ⟨2, ![1, n]⟩)
    (hlt : FTy.bits .bf16 < FTy.bits .f32)
    (w : DotDims.WF ⟨2, ![n, 1024]⟩ ⟨2, ![n, 1024]⟩ ⟨2, ![n, n]⟩ [1] [1] [0] [0] [] [])
    (x y : FVec Ideal ⟨2, ![n, 1024]⟩ .f32) (p q : Fin n) :
    distTile hb1 hb2
        (shapeCast ⟨2, ![n, 1]⟩ (multiReduction (F := Ideal) .add [1] ⟨1, ![n]⟩ (mulf x x) 0x00000000#32 hr hφ hacc) hc)
        (transpose ⟨2, ![1, n]⟩ [1, 0]
          (shapeCast ⟨2, ![n, 1]⟩ (multiReduction (F := Ideal) .add [1] ⟨1, ![n]⟩ (mulf y y) 0x00000000#32 hr hφ hacc) hc) ht)
        (matmul (F := Ideal) (gramDims n w) none (truncf .bf16 x hlt) (truncf .bf16 y hlt)
          (constant (F := Ideal) ⟨2, ![n, n]⟩ .f32 0x00000000#32)) (ix2 p q)
      = Cert.Spec.dist (fun k => x (ix2 p k)) (fun k => y (ix2 q k)) := by
  refine (distTile_apply hb1 hb2 _ _ _ p q).trans ?_
  unfold Cert.Spec.dist
  refine congrArg Ideal.sqrt ?_
  refine congrArg (fun z => max z 0 + Cert.Spec.eps) ?_
  refine congrArg₂ (fun a b => a - Cert.Spec.two * b) (congrArg₂ (· + ·) ?_ ?_) ?_
  · refine (shapeCast_a_a1_apply _ hc p (0 : Fin 1)).trans ?_
    exact rowSum_apply (mulf x x) hr hφ hacc p
  · refine (transpose_ix2_apply _ ht (0 : Fin 1) q).trans ?_
    refine (shapeCast_a_a1_apply _ hc q (0 : Fin 1)).trans ?_
    exact rowSum_apply (mulf y y) hr hφ hacc q
  · exact gram_apply w (truncf .bf16 x hlt) (truncf .bf16 y hlt) p q

/-! ## The distance kernel's tile -/

/-- Entry `(p, q)` of the stored tile is the smoothed distance of row `p` of the first block and row `q` of the
    second. -/
theorem k0_pay1_apply (v0 v1 : Vec Ideal S256x1024 .f32) (p q : Fin 256) :
    Gen.k0_pay1 (F := Ideal) v0 v1 (ix2 p q) = Cert.Spec.dist (fun k => v0 (ix2 p k)) (fun k => v1 (ix2 q k)) := by
  unfold Gen.k0_pay1
  exact distTile_blocks_apply broadcasts_S256x1_S256x256 broadcasts_S1x256_S256x256 reduces_S256x1024_S256 (.inl rfl) rfl
    shapeCasts_S256_S256x1 transposes_S256x1_p1_0_S1x256 bitsLt_bf16_f32 dot_S256x1024_S256x1024_S256x256_1_1_0_0_n_n_wf
    v0 v1 p q

/-! ## The sentence kernel's tile sum -/

/-- The one number the sentence body passes on: over the tile's pairs `(p, q)`, the squared difference between the
    smoothed distance of row `p` of the first block and row `q` of the second, and the sentence tile's entry. The blocks
    drop their leading unit axis; the tile of distances is the distance kernel's; the differences are squared, summed
    along the lanes into a column, and the column summed to one entry, both sums from zero. -/
theorem k1_pay3_apply (v5 v7 : Vec Ideal S1x512x1024 .f32) (v30 : Vec Ideal S512x512 .f32) :
    Gen.k1_pay3 (F := Ideal) v5 v7 v30 (ix1 (0 : Fin 1))
      = ∑ p : Fin 512, ∑ q : Fin 512,
          Cert.Spec.sqdiff (Cert.Spec.dist (fun k => v5 (ix3 (0 : Fin 1) p k)) (fun k => v7 (ix3 (0 : Fin 1) q k))) (v30 (ix2 p q)) := by
  unfold Gen.k1_pay3
  refine (colSum_apply _ reduces_S512x1_S1 (.inl rfl) rfl (0 : Fin 1)).trans ?_
  refine Finset.sum_congr rfl fun p _ => ?_
  refine (shapeCast_a_a1_apply _ shapeCasts_S512_S512x1 p (0 : Fin 1)).trans ?_
  refine (rowSum_apply _ reduces_S512x512_S512 (.inl rfl) rfl p).trans ?_
  refine Finset.sum_congr rfl fun q _ => ?_
  unfold Cert.Spec.sqdiff
  refine (mulf_apply _ _ _).trans ?_
  refine congrArg (fun z => z * z) ?_
  refine (subf_apply _ _ _).trans ?_
  refine congrArg₂ (· - ·) ?_ (congrFun (shapeCast_self v30 shapeCasts_S512x512_S512x512) (ix2 p q))
  refine (distTile_blocks_apply broadcasts_S512x1_S512x512 broadcasts_S1x512_S512x512 reduces_S512x1024_S512 (.inl rfl) rfl
    shapeCasts_S512_S512x1 transposes_S512x1_p1_0_S1x512 bitsLt_bf16_f32 dot_S512x1024_S512x1024_S512x512_1_1_0_0_n_n_wf
    (shapeCast S512x1024 v5 shapeCasts_S1x512x1024_S512x1024) (shapeCast S512x1024 v7 shapeCasts_S1x512x1024_S512x1024)
    p q).trans ?_
  exact congrArg₂ Cert.Spec.dist
    (funext fun k => shapeCast_1ab_ab_apply v5 shapeCasts_S1x512x1024_S512x1024 p k)
    (funext fun k => shapeCast_1ab_ab_apply v7 shapeCasts_S1x512x1024_S512x1024 q k)

end Cert.KernelIdeal.PayValue

end
-- ==== Proof.KI.R0Value.lean ====
/-
  The first kernel region's output array after all sixteen grid points: the pairwise smoothed distances of the rows
  of the sentence array.

  Point t = 4 r + c of the 4 × 4 grid reads rows 256 r … of the sentence array through its first window and rows
  256 c … through its second, and writes tile (r, c) of the 1024 × 1024 output: entry (p', q') of the tile is the
  distance of row p' of the first block and row q' of the second, that is of rows 256 r + p' and 256 c + q' of the
  array. Every point writes its tile back, and the sixteen tiles cover the output.
-/
import proofs.«136828_j84619445666637_1_alg».proof.Proof.KI.R0
import proofs.«136828_j84619445666637_1_alg».proof.Proof.PayValue
import proofs.«136828_j84619445666637_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Region0Value

variable (V : (c : Dev nD) → (b : Ref sig .tc) → Buf (Elt Ideal) ((c : Thread nD τ).loc b))

theorem hz0 : (![0, 0] : Fin 2 → Nat) = fun _ => 0 := funext fun a => by fin_cases a <;> rfl

/-- The matrix of smoothed distances between the rows of a 1024 × 1024 array. -/
def distMat (A : S1024x1024.Idx → EReal) : S1024x1024.Idx → EReal := fun j =>
  Cert.Spec.dist (fun k => A (ix2 (⟨(j 0).val, (j 0).isLt⟩ : Fin 1024) k))
    (fun k => A (ix2 (⟨(j 1).val, (j 1).isLt⟩ : Fin 1024) k))

/-- The printed index maps, decided over the grid: at point t the first window is on row block t / 4, the second on
    row block t % 4, and the output window on tile (t / 4, t % 4). -/
theorem idx_facts0 : ∀ t : Fin cfg0.N, win0_0.index t (0 : Fin 2) = t.val / 4
    ∧ win0_0.index t (1 : Fin 2) = 0
    ∧ win0_1.index t (0 : Fin 2) = t.val % 4
    ∧ win0_1.index t (1 : Fin 2) = 0
    ∧ win0_2.index t (0 : Fin 2) = t.val / 4
    ∧ win0_2.index t (1 : Fin 2) = t.val % 4 :=
  (by decide +kernel : ∀ t : Fin grid0.N, _)

/-- Every tile of the output is some point's. -/
theorem idx_onto0 : ∀ (r c : Fin 4), ∃ t : Fin cfg0.N, win0_2.index t = ![r.val, c.val] :=
  (by decide +kernel : ∀ (r c : Fin 4), ∃ t : Fin grid0.N, win0_2.index t = ![r.val, c.val])

theorem flushed0_eq (c : Dev nD) (t : Fin cfg0.N) :
    (dat0 (F := Ideal) V c).flushed 2 t
      = ((cfg0.win 2).blk t).view.read (Elt Ideal) (distMat (V c main_arg1)) := by
  show (cfg0.win 2).cut (grid0.coords t) ((dat0 (F := Ideal) V c).after 2 t) = _
  rw [after0_2]
  unfold out0_2
  rw [View.canon_unit_zero hz0]
  simp only [View.ld_unit_zero (S := S256x1024) hz0]
  have hN : cfg0.N = 16 := N_0
  have ht : t.val < 16 := by have := t.isLt; omega
  obtain ⟨e0, e1, e2, e3, e4, e5⟩ := idx_facts0 t
  -- where each block's entries sit in its array: block index × block size + 1 × the coordinate inside the block
  have h0 : ∀ (p : Fin 256) (k : Fin 1024), ((cfg0.win 0).blk t).view.emb (ix2 p k)
      = ix2 (⟨t.val / 4 * 256 + p.val, by have := p.isLt; omega⟩ : Fin 1024) k := fun p k => by
    funext a; apply Fin.ext
    match a with
    | ⟨0, _⟩ => show win0_0.index t (0 : Fin 2) * 256 + 1 * p.val = t.val / 4 * 256 + p.val; rw [e0]; omega
    | ⟨1, _⟩ => show win0_0.index t (1 : Fin 2) * 1024 + 1 * k.val = k.val; rw [e1]; omega
  have h1 : ∀ (q : Fin 256) (k : Fin 1024), ((cfg0.win 1).blk t).view.emb (ix2 q k)
      = ix2 (⟨t.val % 4 * 256 + q.val, by have := q.isLt; omega⟩ : Fin 1024) k := fun q k => by
    funext a; apply Fin.ext
    match a with
    | ⟨0, _⟩ => show win0_1.index t (0 : Fin 2) * 256 + 1 * q.val = t.val % 4 * 256 + q.val; rw [e2]; omega
    | ⟨1, _⟩ => show win0_1.index t (1 : Fin 2) * 1024 + 1 * k.val = k.val; rw [e3]; omega
  have h2 : ∀ (p q : Fin 256), ((cfg0.win 2).blk t).view.emb (ix2 p q)
      = ix2 (⟨t.val / 4 * 256 + p.val, by have := p.isLt; omega⟩ : Fin 1024)
          (⟨t.val % 4 * 256 + q.val, by have := q.isLt; omega⟩ : Fin 1024) := fun p q => by
    funext a; apply Fin.ext
    match a with
    | ⟨0, _⟩ => show win0_2.index t (0 : Fin 2) * 256 + 1 * p.val = t.val / 4 * 256 + p.val; rw [e4]; omega
    | ⟨1, _⟩ => show win0_2.index t (1 : Fin 2) * 256 + 1 * q.val = t.val % 4 * 256 + q.val; rw [e5]; omega
  funext j
  obtain ⟨p, q, rfl⟩ : ∃ (p q : Fin 256), j = ix2 p q := ⟨j 0, j 1, eq_ix2 j⟩
  refine (Cert.KernelIdeal.PayValue.k0_pay1_apply _ _ p q).trans ?_
  show Cert.Spec.dist (fun k => V c main_arg1 (((cfg0.win 0).blk t).view.emb (ix2 p k)))
      (fun k => V c main_arg1 (((cfg0.win 1).blk t).view.emb (ix2 q k)))
    = distMat (V c main_arg1) (((cfg0.win 2).blk t).view.emb (ix2 p q))
  simp only [h0, h1]
  rw [h2]
  rfl

/-- An index of the output is in point t's tile iff each coordinate is in the tile's range on its axis. -/
theorem mem_blk0 (t : Fin cfg0.N) (i : S1024x1024.Idx) :
    i ∈ ((cfg0.win 2).blk t).view.set
      ↔ ∀ a : Fin 2, win0_2.index t a * S256x256.size a ≤ (i a).val
          ∧ (i a).val < win0_2.index t a * S256x256.size a + S256x256.size a := by
  show i ∈ ((View.whole main_v0).slice (win0_2.rect t)).set ↔ _
  rw [View.set_slice_whole, Rect.mem_set_unit]
  exact Iff.rfl

/-- The sixteen tiles cover the output: entry (i₀, i₁) is in tile (i₀ / 256, i₁ / 256). -/
theorem cover0 (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := idx_onto0 ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk0]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- The output array after the region is the distance matrix of the sentence array's rows. -/
theorem final0_all (c : Dev nD) : (dat0 (F := Ideal) V c).arrAt 2 cfg0.N = distMat (V c main_arg1) :=
  (dat0 (F := Ideal) V c).arrAt_eq_of_cover 2 (distMat (V c main_arg1)) (fun t _ => flushed0_eq V c t) cover0

/-- Entry (p, q) of the output array after the region is the smoothed distance of rows p and q. -/
theorem final0 (c : Dev nD) (p q : Fin 1024) :
    (dat0 (F := Ideal) V c).arrAt 2 cfg0.N (ix2 p q)
      = Cert.Spec.dist (fun k => V c main_arg1 (ix2 p k)) (fun k => V c main_arg1 (ix2 q k)) := by
  rw [final0_all]
  rfl

end Region0Value

end Cert.KernelIdeal.Hand

end
-- ==== Proof.KI.R1Value.lean ====
/-
  The second kernel region's final array at the ideal values.

  Row tile r's 8 × 128 output block is reset at the first of its 64 visits and then, at every visit, gains the visit's
  tile sum divided by 1024 in every entry; it is written back after the 64th visit. So every entry of block r of the
  result array ends at the running value `Spec.acc T r 64`, T the squared difference between the smoothed distances of
  two rows of a slice and of the sentence matrix.
-/
import proofs.«136828_j84619445666637_1_alg».proof.Proof.KI.R1
import proofs.«136828_j84619445666637_1_alg».proof.Proof.PayValue
import proofs.«136828_j84619445666637_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Region1Value

/-! ## What one visit leaves in the output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- A later visit leaves the update of the block it found: its one store covers the block, and its loads read the
    whole staging buffers. -/
theorem out1_B (c : Dev nD) (i : grid1.Coords) (a3 : Memref sig .tc .vmem S1x512x1024 .f32) (h3 : a3.IsWhole)
    (a4 : Memref sig .tc .vmem S1x512x1024 .f32) (h4 : a4.IsWhole) (a5 : Memref sig .tc .vmem S512x512 .f32) (h5 : a5.IsWhole)
    (a6 : Memref sig .tc .vmem S1x8x128 .f32) (h6 : a6.IsWhole) (hc : ¬cond1_0 i)
    (x0 x1 : Vec F S1x512x1024 .f32) (x2 : Vec F S512x512 .f32) (xo : Vec F S1x8x128 .f32) :
    out1_B_3 c i a3 h3 a4 h4 a5 h5 a6 h6 hc x0 x1 x2 xo = k1_pay1 (k1_pay3 x0 x1 x2) xo := by
  unfold out1_B_3
  rw [View.read_writes_eq_canon _ _ _ (cover1_B_3 c i a3 h3 a4 h4 a5 h5 a6 h6 hc x0 x1 x2 xo)]
  unfold kernelRun1_B
  dsimp only
  rw [View.canon_unit_zero hz3]
  sl_unfold_run_names
  simp only [View.readAt_eq_ld, h3.read_unread, h4.read_unread, h5.read_unread, h6.read_unread,
    View.ld_unit_zero (S := S1x512x1024) hz3, View.ld_unit_zero (S := S512x512) hz2, View.ld_unit_zero (S := S1x8x128) hz3]

/-- A first visit leaves the update of the zero block: the reset's store is read back by the update's load. -/
theorem out1_A (c : Dev nD) (i : grid1.Coords) (a3 : Memref sig .tc .vmem S1x512x1024 .f32) (h3 : a3.IsWhole)
    (a4 : Memref sig .tc .vmem S1x512x1024 .f32) (h4 : a4.IsWhole) (a5 : Memref sig .tc .vmem S512x512 .f32) (h5 : a5.IsWhole)
    (a6 : Memref sig .tc .vmem S1x8x128 .f32) (h6 : a6.IsWhole) (hc : cond1_0 i)
    (x0 x1 : Vec F S1x512x1024 .f32) (x2 : Vec F S512x512 .f32) :
    out1_A_3 c i a3 h3 a4 h4 a5 h5 a6 h6 hc x0 x1 x2 = k1_pay1 (k1_pay3 x0 x1 x2) (k1_pay2 (F := F)) := by
  unfold out1_A_3
  rw [View.read_writes_eq_canon _ _ _ (cover1_A_3 c i a3 h3 a4 h4 a5 h5 a6 h6 hc x0 x1 x2)]
  unfold kernelRun1_A
  dsimp only
  rw [View.canon_cons_unit_zero (S := S1x8x128) hz3]
  sl_unfold_words
  rw [View.readCov_unit_zero (S := S1x8x128) _ hz3]
  simp only [View.readAt_eq_ld, h3.read_unread, h4.read_unread, h5.read_unread,
    View.ld_unit_zero (S := S1x512x1024) hz3, View.ld_unit_zero (S := S512x512) hz2]

/-! ## The blocks a point reads, by coordinates -/

/-- The block indices of the four windows at point `t`: slice `(t / 2) % 32`, row tile `t / 64`, column tile `t % 2`. -/
theorem idx1 : ∀ t : Fin grid1.N,
    (win1_0.index t 0 = (t.val / 2) % 32 ∧ win1_0.index t 1 = t.val / 64 ∧ win1_0.index t 2 = 0) ∧
    (win1_1.index t 0 = (t.val / 2) % 32 ∧ win1_1.index t 1 = t.val % 2 ∧ win1_1.index t 2 = 0) ∧
    (win1_2.index t 0 = t.val / 64 ∧ win1_2.index t 1 = t.val % 2) ∧
    (win1_3.index t 0 = t.val / 64 ∧ win1_3.index t 1 = 0 ∧ win1_3.index t 2 = 0) := by decide +kernel

variable (V : (c : Dev nD) → (b : Ref sig .tc) → Buf (Elt F) ((c : Thread nD τ).loc b))

/-- The first window's block is rows `512 r ..` of slice `i`: an element of a block sits, on each axis, at the block
    index times the block's size plus its coordinate in the block. -/
theorem iblk1_0_apply (c : Dev nD) (t : Fin cfg1.N) (hi : (t.val / 2) % 32 < 32) (hr : t.val / 64 < 2) (p' : Fin 512) (k : Fin 1024) :
    (iblk1 V c 0 t : Vec F S1x512x1024 .f32) (ix3 (0 : Fin 1) p' k)
      = V c main_arg0 (ix3 (⟨(t.val / 2) % 32, hi⟩ : Fin 32) (Cert.Spec.tileRow ⟨t.val / 64, hr⟩ p') k) := by
  have h := (idx1 t).1
  unfold iblk1
  rw [View.read_apply]
  show V c main_arg0 _ = V c main_arg0 _
  refine congrArg (V c main_arg0) ?_
  funext a
  apply Fin.ext
  match a with
  | ⟨0, _⟩ => show win1_0.index t 0 * 1 + 1 * 0 = (t.val / 2) % 32; rw [h.1]; omega
  | ⟨1, _⟩ => show win1_0.index t 1 * 512 + 1 * p'.val = (t.val / 64) * 512 + p'.val; rw [h.2.1]; omega
  | ⟨2, _⟩ => show win1_0.index t 2 * 1024 + 1 * k.val = k.val; rw [h.2.2]; omega

/-- The second window's block is rows `512 c ..` of slice `i`. -/
theorem iblk1_1_apply (c : Dev nD) (t : Fin cfg1.N) (hi : (t.val / 2) % 32 < 32) (hc : t.val % 2 < 2) (q' : Fin 512) (k : Fin 1024) :
    (iblk1 V c 1 t : Vec F S1x512x1024 .f32) (ix3 (0 : Fin 1) q' k)
      = V c main_arg0 (ix3 (⟨(t.val / 2) % 32, hi⟩ : Fin 32) (Cert.Spec.tileRow ⟨t.val % 2, hc⟩ q') k) := by
  have h := (idx1 t).2.1
  unfold iblk1
  rw [View.read_apply]
  show V c main_arg0 _ = V c main_arg0 _
  refine congrArg (V c main_arg0) ?_
  funext a
  apply Fin.ext
  match a with
  | ⟨0, _⟩ => show win1_1.index t 0 * 1 + 1 * 0 = (t.val / 2) % 32; rw [h.1]; omega
  | ⟨1, _⟩ => show win1_1.index t 1 * 512 + 1 * q'.val = (t.val % 2) * 512 + q'.val; rw [h.2.1]; omega
  | ⟨2, _⟩ => show win1_1.index t 2 * 1024 + 1 * k.val = k.val; rw [h.2.2]; omega

/-- The third window's block is tile `(r, c)` of the distance matrix. -/
theorem iblk1_2_apply (c : Dev nD) (t : Fin cfg1.N) (hr : t.val / 64 < 2) (hc : t.val % 2 < 2) (p' q' : Fin 512) :
    (iblk1 V c 2 t : Vec F S512x512 .f32) (ix2 p' q')
      = V c main_v0 (ix2 (Cert.Spec.tileRow ⟨t.val / 64, hr⟩ p') (Cert.Spec.tileRow ⟨t.val % 2, hc⟩ q')) := by
  have h := (idx1 t).2.2.1
  unfold iblk1
  rw [View.read_apply]
  show V c main_v0 _ = V c main_v0 _
  refine congrArg (V c main_v0) ?_
  funext a
  apply Fin.ext
  match a with
  | ⟨0, _⟩ => show win1_2.index t 0 * 512 + 1 * p'.val = (t.val / 64) * 512 + p'.val; rw [h.1]; omega
  | ⟨1, _⟩ => show win1_2.index t 1 * 512 + 1 * q'.val = (t.val % 2) * 512 + q'.val; rw [h.2]; omega

end Region1Value

section AtIdeal

variable (V : (c : Dev nD) → (b : Ref sig .tc) → Buf (Elt Ideal) ((c : Thread nD τ).loc b))

/-! ## The running value after every point -/

/-- The summand of the sentence term over the region's arrays: the squared difference between the smoothed distance of
    rows `p`, `q` of slice `n` and entry `(p, q)` of the distance matrix the first region wrote. -/
abbrev T1 (c : Dev nD) : Fin 32 → Fin 1024 → Fin 1024 → EReal := fun n p q =>
  Cert.Spec.sqdiff (Cert.Spec.dist (fun k => V c main_arg0 (ix3 n p k)) (fun k => V c main_arg0 (ix3 n q k)))
    (V c main_v0 (ix2 p q))

/-- The one number a point computes is its tile's sum: row tile `t / 64`, slice `(t / 2) % 32`, column tile `t % 2`. -/
theorem visit1 (c : Dev nD) (t : Fin cfg1.N) (hr : t.val / 64 < 2) (hi : (t.val / 2) % 32 < 32) (hc : t.val % 2 < 2) :
    k1_pay3 (F := Ideal) (iblk1 V c 0 t) (iblk1 V c 1 t) (iblk1 V c 2 t) (ix1 (0 : Fin 1))
      = Cert.Spec.tileSum (T1 V c) ⟨t.val / 64, hr⟩ ⟨(t.val / 2) % 32, hi⟩ ⟨t.val % 2, hc⟩ := by
  refine (PayValue.k1_pay3_apply _ _ _).trans ?_
  unfold Cert.Spec.tileSum
  refine Finset.sum_congr rfl fun p' _ => Finset.sum_congr rfl fun q' _ => ?_
  exact congrArg₂ Cert.Spec.sqdiff
    (congrArg₂ Cert.Spec.dist (funext fun k => iblk1_0_apply V c t hi hr p' k) (funext fun k => iblk1_1_apply V c t hi hc q' k))
    (iblk1_2_apply V c t hr hc p' q')

/-- The running value's step. -/
theorem acc_succ (T : Fin 32 → Fin 1024 → Fin 1024 → EReal) (r : Fin 2) (k : ℕ) :
    Cert.Spec.acc T r (k + 1) = Cert.Spec.acc T r k
      + Ideal.div (Cert.Spec.tileSum T r ⟨(k / 2) % 32, Nat.mod_lt _ (by decide)⟩ ⟨k % 2, Nat.mod_lt _ (by decide)⟩) Cert.Spec.c1024 := rfl

/-- A point's contribution takes the running value of its row tile from its visit number to the next: the slice and the
    column tile of point `t` are those of visit `t % 64`. -/
theorem visit_acc (c : Dev nD) (t : Fin cfg1.N) (r : Fin 2) (hr : t.val / 64 = r.val) (hN : t.val < 128) :
    Cert.Spec.acc (T1 V c) r (t.val % 64)
        + Ideal.div (k1_pay3 (F := Ideal) (iblk1 V c 0 t) (iblk1 V c 1 t) (iblk1 V c 2 t) (ix1 (0 : Fin 1))) Cert.Spec.c1024
      = Cert.Spec.acc (T1 V c) r (t.val % 64 + 1) := by
  rw [acc_succ, visit1 V c t (by omega) (by omega) (by omega)]
  have e1 : (⟨t.val / 64, by omega⟩ : Fin 2) = r := Fin.ext hr
  have e2 : (⟨(t.val / 2) % 32, by omega⟩ : Fin 32) = ⟨((t.val % 64) / 2) % 32, Nat.mod_lt _ (by decide)⟩ :=
    Fin.ext (by show (t.val / 2) % 32 = ((t.val % 64) / 2) % 32; omega)
  have e3 : (⟨t.val % 2, by omega⟩ : Fin 2) = ⟨(t.val % 64) % 2, Nat.mod_lt _ (by decide)⟩ :=
    Fin.ext (by show t.val % 2 = (t.val % 64) % 2; omega)
  rw [e1, e2, e3]

/-- After the first visit of a row tile every entry of its block holds the running value after one visit. -/
theorem first_visit (c : Dev nD) (t : Fin cfg1.N) (h0 : t.val % 64 = 0) (r : Fin 2) (hr : t.val / 64 = r.val)
    (a : Fin 8) (b : Fin 128) :
    outsAt1 (F := Ideal) V c t.val t.isLt (ix3 (0 : Fin 1) a b) = Cert.Spec.acc (T1 V c) r (t.val % 64 + 1) := by
  have hN : t.val < 128 := lt_of_lt_of_eq t.isLt (show cfg1.N = 128 from N_1)
  rw [outsAt1_A V c t h0, out1_A]
  refine (PayValue.k1_pay1_apply _ _ a b).trans ?_
  rw [PayValue.k1_pay2_apply]
  have h := visit_acc V c t r hr hN
  rw [h0] at h ⊢
  exact h

/-- After every point every entry of the block holds the running value of the point's row tile after the point's visit:
    by induction on the point. -/
theorem outsAt1_eq (c : Dev nD) : ∀ (n : ℕ) (hn : n < cfg1.N) (r : Fin 2) (hr : n / 64 = r.val) (a : Fin 8) (b : Fin 128),
    outsAt1 (F := Ideal) V c n hn (ix3 (0 : Fin 1) a b) = Cert.Spec.acc (T1 V c) r (n % 64 + 1) := by
  intro n
  induction n with
  | zero =>
    intro hn r hr a b
    exact first_visit V c ⟨0, hn⟩ rfl r hr a b
  | succ n ih =>
    intro hn r hr a b
    have hN : n + 1 < 128 := lt_of_lt_of_eq hn (show cfg1.N = 128 from N_1)
    by_cases h0 : (n + 1) % 64 = 0
    · exact first_visit V c ⟨n + 1, hn⟩ h0 r hr a b
    · rw [outsAt1_B V c ⟨n + 1, hn⟩ h0, out1_B]
      refine (PayValue.k1_pay1_apply _ _ a b).trans ?_
      have ihn := ih (Nat.lt_of_succ_lt hn) r (by omega) a b
      show outsAt1 V c n _ (ix3 (0 : Fin 1) a b) + _ = _
      rw [ihn]
      have hk : n % 64 + 1 = (n + 1) % 64 := by omega
      rw [hk]
      exact visit_acc V c ⟨n + 1, hn⟩ r hr hN

/-! ## The result array -/

/-- What the result array ends holding: in block `r`, at every entry, the running value of row tile `r` after its 64
    visits. -/
def G1 (c : Dev nD) : S2x8x128.Idx → EReal := fun i => Cert.Spec.acc (T1 V c) (i 0) 64

/-- Two blocks that agree at every `(0, a, b)` are equal. -/
theorem block_ext (X Y : S1x8x128.Idx → EReal) (h : ∀ (a : Fin 8) (b : Fin 128), X (ix3 (0 : Fin 1) a b) = Y (ix3 (0 : Fin 1) a b)) :
    X = Y := by
  funext j
  obtain ⟨u, a, b, rfl⟩ : ∃ (u : Fin 1) (a : Fin 8) (b : Fin 128), j = ix3 u a b := ⟨_, _, _, eq_ix3 j⟩
  obtain rfl : u = 0 := Subsingleton.elim _ _
  exact h a b

/-- The write-back after the 64th visit of a row tile writes that block. -/
theorem flushed1_eq (c : Dev nD) (t : Fin cfg1.N) (hf : (cfg1.win 3).flush t = true) :
    (dat1 (F := Ideal) V c).flushed 3 t = ((cfg1.win 3).blk t).view.read (Elt Ideal) (G1 V c) := by
  have hN : t.val < 128 := lt_of_lt_of_eq t.isLt (show cfg1.N = 128 from N_1)
  have h63 : t.val % 64 = 63 := (flush1_3 t).mp hf
  have hidx := (idx1 t).2.2.2
  refine block_ext _ _ fun a b => ?_
  have e : (cfg1.win 3).xinj (grid1.coords t) (ix3 (0 : Fin 1) a b) = ix3 (0 : Fin 1) a b :=
    funext fun d => match d with | ⟨0, _⟩ => rfl | ⟨1, _⟩ => rfl | ⟨2, _⟩ => rfl
  show (dat1 (F := Ideal) V c).after 3 t ((cfg1.win 3).xinj (grid1.coords t) (ix3 (0 : Fin 1) a b)) = _
  rw [e, after1_3, View.read_apply, outsAt1_eq V c t.val t.isLt ⟨t.val / 64, by omega⟩ rfl a b, h63]
  show Cert.Spec.acc (T1 V c) ⟨t.val / 64, _⟩ 64 = G1 V c (((cfg1.win 3).blk t).view.emb (ix3 (0 : Fin 1) a b))
  unfold G1
  refine congrArg (fun r => Cert.Spec.acc (T1 V c) r 64) (Fin.ext ?_)
  show t.val / 64 = win1_3.index t 0 * 1 + 1 * 0
  rw [hidx.1]; omega

/-- Every entry of block `r` of the result array ends at the running value of row tile `r` after its 64 visits: the
    entry lies in the block written back after point `64 r + 63`. -/
theorem final1 (V : (c : Dev nD) → (b : Ref sig .tc) → Buf (Elt Ideal) ((c : Thread nD τ).loc b)) (c : Dev nD) (r : Fin 2) (a : Fin 8) (b : Fin 128) :
    (dat1 (F := Ideal) V c).arrAt 3 cfg1.N (ix3 r a b)
      = Cert.Spec.acc (fun n p q => Cert.Spec.sqdiff (Cert.Spec.dist (fun k => V c main_arg0 (ix3 n p k)) (fun k => V c main_arg0 (ix3 n q k))) (V c main_v0 (ix2 p q))) r 64 := by
  have hN : cfg1.N = 128 := N_1
  have hr := r.isLt
  have ht : 64 * r.val + 63 < cfg1.N := by rw [hN]; omega
  have hf : (cfg1.win 3).flush ⟨64 * r.val + 63, ht⟩ = true :=
    (flush1_3 ⟨64 * r.val + 63, ht⟩).mpr (by show (64 * r.val + 63) % 64 = 63; omega)
  have hidx := (idx1 ⟨64 * r.val + 63, ht⟩).2.2.2
  refine ((dat1 (F := Ideal) V c).arrAt_apply_of_mem 3 (G1 V c) (flushed1_eq V c) cfg1.N ⟨64 * r.val + 63, ht⟩ (ix3 r a b) ht hf ?_).trans rfl
  show (ix3 r a b) ∈ ((View.whole main_v1).slice (win1_3.rect ⟨64 * r.val + 63, ht⟩)).set
  rw [View.set_slice_whole, Rect.mem_set_unit]
  intro d
  match d with
  | ⟨0, _⟩ =>
    show win1_3.index ⟨64 * r.val + 63, ht⟩ 0 * 1 ≤ r.val ∧ r.val < win1_3.index ⟨64 * r.val + 63, ht⟩ 0 * 1 + 1
    rw [hidx.1]; show (64 * r.val + 63) / 64 * 1 ≤ r.val ∧ r.val < (64 * r.val + 63) / 64 * 1 + 1; omega
  | ⟨1, _⟩ =>
    show win1_3.index ⟨64 * r.val + 63, ht⟩ 1 * 8 ≤ a.val ∧ a.val < win1_3.index ⟨64 * r.val + 63, ht⟩ 1 * 8 + 8
    rw [hidx.2.1]; omega
  | ⟨2, _⟩ =>
    show win1_3.index ⟨64 * r.val + 63, ht⟩ 2 * 128 ≤ b.val ∧ b.val < win1_3.index ⟨64 * r.val + 63, ht⟩ 2 * 128 + 128
    rw [hidx.2.2]; omega

end AtIdeal

end Cert.KernelIdeal.Hand

end
-- ==== Proof.KI.Tail.lean ====
/-
  The host operations after the two kernel regions, against the reference.

  After its regions the kernel program computes the pairwise-margin term from the array of slices alone, by the same
  host operations, in the same order, as the reference does; and its loss is half the sentence term plus half that term.
-/
import proofs.«136828_j84619445666637_1_alg».proof.Proof.KI.Run
import proofs.«136828_j84619445666637_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

section Tail

variable (m : (ℓ : Loc nD τ sig) → Buf (Elt Ideal) ℓ) (c : Dev nD)

theorem loss_eq : (W9 m c main_v33 : (⟨S_, .f32⟩ : BufTy).Contents (Elt Ideal))
    = addf (mulf (constant (F := Ideal) S_ .f32 0x3F000000#32) (W9 m c main_v3))
        (mulf (constant (F := Ideal) S_ .f32 0x3F000000#32) (W9 m c main_v30)) := by
  show (StableHlo.after hostOps2_6 (W8 m c) (Proc.devRef .tc main_v33) : (⟨S_, .f32⟩ : BufTy).Contents (Elt Ideal))
    = addf (mulf (constant (F := Ideal) S_ .f32 0x3F000000#32)
          (StableHlo.after hostOps2_6 (W8 m c) (Proc.devRef .tc main_v3) : (⟨S_, .f32⟩ : BufTy).Contents (Elt Ideal)))
        (mulf (constant (F := Ideal) S_ .f32 0x3F000000#32)
          (StableHlo.after hostOps2_6 (W8 m c) (Proc.devRef .tc main_v30) : (⟨S_, .f32⟩ : BufTy).Contents (Elt Ideal)))
  generalize W8 m c = W
  after_results

theorem tail_eq : (W9 m c main_v30 : (⟨S_, .f32⟩ : BufTy).Contents (Elt Ideal))
    = Cert.ReferenceIdeal.Read.val_main_v66 (F := Ideal) (m ((c.tc : Thread nD τ).loc main_arg0)) := by
  refine Eq.trans ?_ (Cert.ReferenceIdeal.Read.val_main_v66_eq (F := Ideal) (m ((c.tc : Thread nD τ).loc main_arg0)))
  show (StableHlo.after hostOps2_6 (StableHlo.after hostOps2_5 (StableHlo.after hostOps2_4 (StableHlo.after hostOps2_3
      (StableHlo.after hostOps2_2 (StableHlo.after hostOps2_1 (StableHlo.after hostOps2 (W2 m c)))))))
      (Proc.devRef .tc main_v30) : (⟨S_, .f32⟩ : BufTy).Contents (Elt Ideal)) = _
  generalize hW : W2 m c = W
  after_results_simp
  subst hW
  rw [show W2 m c (Proc.devRef .tc main_arg0) = m ((c.tc : Thread nD τ).loc main_arg0) from
    (W2_of_ne m c main_arg0 (by decide)).trans ((W1_of_ne m c main_arg0 (by decide)).trans rfl)]
  rfl

end Tail

end Cert.KernelIdeal.Hand

end
-- ==== Proof.RefValue.lean ====
/-
  The reference program's sentence total, read as the specification's total, and the finiteness of the inputs that the
  precondition states.

  The reference computes, for the sentence matrix and for each of the 32 slices, the row norms (a sum of squares along
  the last axis, broadcast along rows and along columns), the Gram matrix (a contraction against the transpose), and from
  them sqrt (max (|a|² + |b|² − 2⟨a, b⟩) 0 + ε) at every pair of rows; then it sums the squared differences over all of
  32 × 1024 × 1024. Read at an index built from its coordinates, every layout operation's composed index map is again
  an index built from coordinates, so each buffer is the corresponding piece of the specification.
-/
import proofs.«136828_j84619445666637_1_alg».proof.Proof.Gen.ReferenceIdeal.Read
import proofs.«136828_j84619445666637_1_alg».proof.Proof.Spec
import proofs.«136828_j84619445666637_1_alg».proof.Pre_finite_inputs
import Idealize.ShloMosaic.Lib.ReduceAll

noncomputable section

namespace Cert.RefValue

open Idealize.ShloMosaic Idealize.ShloMosaic.ValueIdx Cert.Spec

/-! ## Finiteness out of the precondition -/

instance : Subsingleton Cert.Pre_finite_inputs.S_.Idx := ⟨fun a b => funext fun d => d.elim0⟩

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The precondition "every entry of both inputs has absolute value below +∞" makes every entry a real. -/
theorem finite_of_pre [Cert.Pre_finite_inputs.Facts]
    (a0 : (⟨Cert.Pre_finite_inputs.S32x1024x1024, .f32⟩ : BufTy).Contents (Elt Ideal))
    (a1 : (⟨Cert.Pre_finite_inputs.S1024x1024, .f32⟩ : BufTy).Contents (Elt Ideal))
    (h : Cert.Pre_finite_inputs.fn (F := Ideal) a0 a1 = (fun _ => 1#1)) :
    (∀ j, ∃ r : ℝ, a0 j = (r : EReal)) ∧ (∀ j, ∃ r : ℝ, a1 j = (r : EReal)) := by
  have h0 := congrFun h ValueIdx.ix0
  dsimp only [Cert.Pre_finite_inputs.fn] at h0
  obtain ⟨h1, h2⟩ := IntOp.andi_eq_one.1 h0
  exact ⟨fun j => real_of_abs_lt_inf _ (Host.reduce_andi_all _ _ _ _ _ h1 j),
    fun j => real_of_abs_lt_inf _ (Host.reduce_andi_all _ _ _ _ _ h2 j)⟩

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

open Cert.ReferenceIdeal Cert.ReferenceIdeal.Read

/-! ## The composed index maps, at indices built from coordinates -/

section Indices

variable (n : Fin 32) (p q k : Fin 1024)

theorem idx_sent_sq : idx_main_v1 (ix1 p) k = ix2 p k :=
  funext fun a => by match a with | ⟨0, _⟩ => rfl | ⟨1, _⟩ => rfl
theorem idx_sent_row : idx_main_v2 (idx_main_v4 (ix2 p q)) = ix1 p :=
  funext fun a => by match a with | ⟨0, _⟩ => rfl
theorem idx_sent_col : idx_main_v3 (idx_main_v5 (ix2 p q)) = ix1 q :=
  funext fun a => by match a with | ⟨0, _⟩ => rfl
theorem idx_sent_gram_l : lidx_main_v8 (ix2 p q) k = ix2 p k :=
  funext fun a => by match a with | ⟨0, _⟩ => rfl | ⟨1, _⟩ => rfl
theorem idx_sent_gram_r : idx_main_v7 (ridx_main_v8 (ix2 p q) k) = ix2 q k :=
  funext fun a => by match a with | ⟨0, _⟩ => rfl | ⟨1, _⟩ => rfl
theorem idx_sent_bcast : idx_main_v34 (idx_main_v35 (ix3 n p q)) = ix2 p q :=
  funext fun a => by match a with | ⟨0, _⟩ => rfl | ⟨1, _⟩ => rfl

theorem idx_out_sq : idx_main_v18 (ix2 n p) k = ix3 n p k :=
  funext fun a => by match a with | ⟨0, _⟩ => rfl | ⟨1, _⟩ => rfl | ⟨2, _⟩ => rfl
theorem idx_out_row : idx_main_v19 (idx_main_v21 (ix3 n p q)) = ix2 n p :=
  funext fun a => by match a with | ⟨0, _⟩ => rfl | ⟨1, _⟩ => rfl
theorem idx_out_col : idx_main_v20 (idx_main_v22 (ix3 n p q)) = ix2 n q :=
  funext fun a => by match a with | ⟨0, _⟩ => rfl | ⟨1, _⟩ => rfl
theorem idx_out_gram_l : lidx_main_v25 (ix3 n p q) k = ix3 n p k :=
  funext fun a => by match a with | ⟨0, _⟩ => rfl | ⟨1, _⟩ => rfl | ⟨2, _⟩ => rfl
theorem idx_out_gram_r : idx_main_v24 (ridx_main_v25 (ix3 n p q) k) = ix3 n q k :=
  funext fun a => by match a with | ⟨0, _⟩ => rfl | ⟨1, _⟩ => rfl | ⟨2, _⟩ => rfl

end Indices

/-! ## The sentence matrix's distances -/

section Sentence

variable (x1 : (⟨S1024x1024, .f32⟩ : BufTy).Contents (Elt Ideal)) (p q : Fin 1024)

/-- A row's squared norm. -/
theorem sent_sq : val_main_v1 (F := Ideal) x1 (ix1 p) = ∑ k : Fin 1024, x1 (ix2 p k) * x1 (ix2 p k) := by
  rw [val_main_v1_apply, val_main_cst_apply, Ideal.ofBits_def, Ideal.ofBits_zero_f32, zero_add]
  refine Finset.sum_congr rfl fun k _ => ?_
  rw [val_main_v0_apply, idx_sent_sq, Ideal.mulf_def]

theorem sent_row : val_main_v4 (F := Ideal) x1 (ix2 p q) = ∑ k : Fin 1024, x1 (ix2 p k) * x1 (ix2 p k) := by
  rw [val_main_v4_apply, val_main_v2_apply, idx_sent_row, sent_sq]

theorem sent_col : val_main_v5 (F := Ideal) x1 (ix2 p q) = ∑ k : Fin 1024, x1 (ix2 q k) * x1 (ix2 q k) := by
  rw [val_main_v5_apply, val_main_v3_apply, idx_sent_col, sent_sq]

/-- Two rows' inner product. -/
theorem sent_gram : val_main_v8 (F := Ideal) x1 (ix2 p q) = ∑ k : Fin 1024, x1 (ix2 p k) * x1 (ix2 q k) := by
  rw [val_main_v8_apply]
  refine Finset.sum_congr rfl fun k _ => ?_
  rw [val_main_v7_apply, idx_sent_gram_l, idx_sent_gram_r]

/-- The smoothed distance of rows p, q of the sentence matrix. -/
theorem sent_dist : val_main_v16 (F := Ideal) x1 (ix2 p q)
    = Cert.Spec.dist (fun k => x1 (ix2 p k)) (fun k => x1 (ix2 q k)) := by
  rw [val_main_v16_apply, val_main_v15_apply, val_main_v13_apply, val_main_v11_apply, val_main_v6_apply,
    val_main_v10_apply, sent_row, sent_col, sent_gram, val_main_v9_apply, val_main_cst_0_apply, val_main_v12_apply,
    val_main_cst_1_apply, val_main_v14_apply, val_main_cst_2_apply]
  simp only [Ideal.hostUnary_sqrt_def, Ideal.addf_def, Ideal.subf_def, Ideal.mulf_def, Ideal.maximumf_def,
    Ideal.ofBits_def, Ideal.ofBits_zero_f32]
  rfl

end Sentence

/-! ## Each slice's distances -/

section Slices

variable (x0 : (⟨S32x1024x1024, .f32⟩ : BufTy).Contents (Elt Ideal)) (n : Fin 32) (p q : Fin 1024)

theorem out_sq : val_main_v18 (F := Ideal) x0 (ix2 n p) = ∑ k : Fin 1024, x0 (ix3 n p k) * x0 (ix3 n p k) := by
  rw [val_main_v18_apply, val_main_cst_3_apply, Ideal.ofBits_def, Ideal.ofBits_zero_f32, zero_add]
  refine Finset.sum_congr rfl fun k _ => ?_
  rw [val_main_v17_apply, idx_out_sq, Ideal.mulf_def]

theorem out_row : val_main_v21 (F := Ideal) x0 (ix3 n p q) = ∑ k : Fin 1024, x0 (ix3 n p k) * x0 (ix3 n p k) := by
  rw [val_main_v21_apply, val_main_v19_apply, idx_out_row, out_sq]

theorem out_col : val_main_v22 (F := Ideal) x0 (ix3 n p q) = ∑ k : Fin 1024, x0 (ix3 n q k) * x0 (ix3 n q k) := by
  rw [val_main_v22_apply, val_main_v20_apply, idx_out_col, out_sq]

theorem out_gram : val_main_v25 (F := Ideal) x0 (ix3 n p q) = ∑ k : Fin 1024, x0 (ix3 n p k) * x0 (ix3 n q k) := by
  rw [val_main_v25_apply]
  refine Finset.sum_congr rfl fun k _ => ?_
  rw [val_main_v24_apply, idx_out_gram_l, idx_out_gram_r]

/-- The smoothed distance of rows p, q of slice n. -/
theorem out_dist : val_main_v33 (F := Ideal) x0 (ix3 n p q)
    = Cert.Spec.dist (fun k => x0 (ix3 n p k)) (fun k => x0 (ix3 n q k)) := by
  rw [val_main_v33_apply, val_main_v32_apply, val_main_v30_apply, val_main_v28_apply, val_main_v23_apply,
    val_main_v27_apply, out_row, out_col, out_gram, val_main_v26_apply, val_main_cst_4_apply, val_main_v29_apply,
    val_main_cst_5_apply, val_main_v31_apply, val_main_cst_6_apply]
  simp only [Ideal.hostUnary_sqrt_def, Ideal.addf_def, Ideal.subf_def, Ideal.mulf_def, Ideal.maximumf_def,
    Ideal.ofBits_def, Ideal.ofBits_zero_f32]
  rfl

end Slices

/-! ## The summand and the total -/

/-- The squared difference of the two distances at slice n, rows p, q. -/
theorem summand (x0 : (⟨S32x1024x1024, .f32⟩ : BufTy).Contents (Elt Ideal))
    (x1 : (⟨S1024x1024, .f32⟩ : BufTy).Contents (Elt Ideal)) (n : Fin 32) (p q : Fin 1024) :
    val_main_v37 (F := Ideal) x0 x1 (ix3 n p q)
      = Cert.Spec.term (fun n p k => x0 (ix3 n p k)) (fun p k => x1 (ix2 p k)) n p q := by
  rw [val_main_v37_apply, val_main_v36_apply, out_dist, val_main_v35_apply, val_main_v34_apply, idx_sent_bcast,
    sent_dist]
  simp only [Ideal.subf_def, Ideal.mulf_def]
  rfl

/-- The reference's sum of all the squared differences is the specification's total. -/
theorem ref_total (x0 : (⟨Cert.ReferenceIdeal.S32x1024x1024, .f32⟩ : BufTy).Contents (Elt Ideal))
    (x1 : (⟨Cert.ReferenceIdeal.S1024x1024, .f32⟩ : BufTy).Contents (Elt Ideal)) (i : Cert.ReferenceIdeal.S_.Idx) :
    Cert.ReferenceIdeal.Read.val_main_v38 (F := Ideal) x0 x1 i
      = Cert.Spec.total (fun n p k => x0 (ix3 n p k)) (fun p k => x1 (ix2 p k)) := by
  rw [val_main_v38_apply, val_main_cst_7_apply, Ideal.ofBits_def, Ideal.ofBits_zero_f32, zero_add,
    sum_idx3 (n0 := 32) (n1 := 1024) (n2 := 1024) (val_main_v37 (F := Ideal) x0 x1)]
  unfold Cert.Spec.total
  exact Finset.sum_congr rfl fun n _ => Finset.sum_congr rfl fun p _ => Finset.sum_congr rfl fun q _ =>
    summand x0 x1 n p q

end Cert.RefValue

end
-- ==== Proof.SumLaw.lean ====
/-
  The algebra that joins the tiled accumulation to the plain total, and the finiteness of the smoothed distance.

  Everything here is about finite (real) data seen inside the extended reals: a finite sum of reals is a real, the
  constants 2, 1024 and ε are reals, so a tile's sum divided by 1024 is a real, and the running value after k visits is
  the real sum of the first k contributions. Summing the same running value 8 · 128 = 1024 times cancels the division;
  the 64 visits are the pairs (slice, column tile); and the rows 0 … 1023 are the pairs (row tile, row inside the tile).
-/
import Mathlib.Algebra.BigOperators.Fin
import Mathlib.Data.EReal.Operations
import Idealize.ShloMosaic.PureOps.Ideal
import proofs.«136828_j84619445666637_1_alg».proof.Proof.Spec

noncomputable section

namespace Cert.SumLaw

open Idealize.ShloMosaic Cert.Spec

/-! ## Reals inside the extended reals -/

/-- A finite sum of reals, seen in the extended reals, is the sum of the summands seen there. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, seen in the extended reals. -/
theorem coe_max (x y : ℝ) : ((max x y : ℝ) : EReal) = max (x : EReal) (y : EReal) :=
  EReal.coe_strictMono.monotone.map_max

/-- The divisor's pattern denotes the real 1024. -/
theorem c1024_eq : c1024 = ((1024 : ℝ) : EReal) := by
  simp [c1024, Ideal.ofBits, Ideal.ieee, -EReal.coe_mul]; norm_num

/-- The cross term's factor denotes the real 2. -/
theorem two_eq : two = ((2 : ℝ) : EReal) := by
  simp [two, Ideal.ofBits, Ideal.ieee, -EReal.coe_mul]; norm_num

/-- The smoothing constant is a positive real. -/
theorem eps_real : ∃ e : ℝ, 0 < e ∧ eps = (e : EReal) := by
  refine ⟨(2 ^ 23 + 0x0CBCCC : ℕ) * (2 : ℝ) ^ ((87 : ℤ) - 127 - 23), by positivity, ?_⟩
  simp [eps, Ideal.ofBits, Ideal.ieee, -EReal.coe_mul]

/-! ## The smoothed distance and the summand are reals on real data -/

/-- The smoothed distance of two rows of reals is a real: the radicand max(…, 0) + ε is a nonnegative real. -/
theorem dist_real (a b : Fin 1024 → ℝ) :
    ∃ r : ℝ, Cert.Spec.dist (fun k => (a k : EReal)) (fun k => (b k : EReal)) = (r : EReal) := by
  obtain ⟨e, he0, he⟩ := eps_real
  have hnn : ¬ (max ((∑ k, a k * a k) + (∑ k, b k * b k) - 2 * (∑ k, a k * b k)) 0 + e < 0) :=
    not_lt.2 (add_nonneg (le_max_right _ _) he0.le)
  refine ⟨Real.sqrt (max ((∑ k, a k * a k) + (∑ k, b k * b k) - 2 * (∑ k, a k * b k)) 0 + e), ?_⟩
  unfold Cert.Spec.dist
  simp only [← EReal.coe_mul, ← coe_finset_sum, two_eq, he, ← EReal.coe_add, ← EReal.coe_sub]
  rw [← EReal.coe_zero, ← coe_max, ← EReal.coe_add, Ideal.sqrt_coe, if_neg hnn]

/-- The summand of the sentence term is a real on real data. -/
theorem term_real (x : Fin 32 → Fin 1024 → Fin 1024 → ℝ) (e : Fin 1024 → Fin 1024 → ℝ) (n : Fin 32) (p q : Fin 1024) :
    ∃ r : ℝ, term (fun n p k => (x n p k : EReal)) (fun p k => (e p k : EReal)) n p q = (r : EReal) := by
  obtain ⟨r1, h1⟩ := dist_real (x n p) (x n q)
  obtain ⟨r2, h2⟩ := dist_real (e p) (e q)
  refine ⟨(r1 - r2) * (r1 - r2), ?_⟩
  show sqdiff (Cert.Spec.dist (fun k => (x n p k : EReal)) (fun k => (x n q k : EReal)))
    (Cert.Spec.dist (fun k => (e p k : EReal)) (fun k => (e q k : EReal))) = _
  rw [h1, h2, sqdiff, ← EReal.coe_sub, ← EReal.coe_mul]

/-! ## Rows as (tile, row inside the tile); visits as (slice, column tile) -/

/-- The 1024 rows are the pairs (row tile, row inside the tile). -/
def rowEquiv : Fin 2 × Fin 512 ≃ Fin 1024 where
  toFun x := tileRow x.1 x.2
  invFun p := (⟨p.val / 512, by have := p.isLt; omega⟩, ⟨p.val % 512, Nat.mod_lt _ (by decide)⟩)
  left_inv x := by
    obtain ⟨r, p'⟩ := x
    have hr := r.isLt
    have hp := p'.isLt
    refine Prod.ext (Fin.ext ?_) (Fin.ext ?_)
    · show (r.val * 512 + p'.val) / 512 = r.val
      omega
    · show (r.val * 512 + p'.val) % 512 = p'.val
      omega
  right_inv p := by
    refine Fin.ext ?_
    show p.val / 512 * 512 + p.val % 512 = p.val
    omega

/-- A sum over the rows is the sum over the tiles of the sums inside each tile. -/
theorem sum_rows (g : Fin 1024 → ℝ) : ∑ p, g p = ∑ r : Fin 2, ∑ p' : Fin 512, g (tileRow r p') := by
  rw [← Equiv.sum_comp rowEquiv g, Fintype.sum_prod_type]
  rfl

/-- The 64 visits are the pairs (slice, column tile): visit j is slice j / 2, column tile j % 2. -/
def visitEquiv : Fin 64 ≃ Fin 32 × Fin 2 where
  toFun j := (⟨(j.val / 2) % 32, Nat.mod_lt _ (by decide)⟩, ⟨j.val % 2, Nat.mod_lt _ (by decide)⟩)
  invFun x := ⟨2 * x.1.val + x.2.val, by have := x.1.isLt; have := x.2.isLt; omega⟩
  left_inv j := by
    have hj := j.isLt
    refine Fin.ext ?_
    show 2 * ((j.val / 2) % 32) + j.val % 2 = j.val
    omega
  right_inv x := by
    obtain ⟨i, c⟩ := x
    have hi := i.isLt
    have hc := c.isLt
    refine Prod.ext (Fin.ext ?_) (Fin.ext ?_)
    · show ((2 * i.val + c.val) / 2) % 32 = i.val
      omega
    · show (2 * i.val + c.val) % 2 = c.val
      omega

/-- A sum over the 64 visits in order is the sum over the slices of the sums over the two column tiles. -/
theorem sum_visits (f : Fin 32 → Fin 2 → ℝ) :
    ∑ j ∈ Finset.range 64, f ⟨(j / 2) % 32, Nat.mod_lt _ (by decide)⟩ ⟨j % 2, Nat.mod_lt _ (by decide)⟩
      = ∑ i : Fin 32, ∑ c : Fin 2, f i c := by
  rw [Finset.sum_range (fun j => f ⟨(j / 2) % 32, Nat.mod_lt _ (by decide)⟩ ⟨j % 2, Nat.mod_lt _ (by decide)⟩),
    ← Fintype.sum_prod_type' f]
  exact Fintype.sum_equiv visitEquiv _ _ (fun j => rfl)

/-! ## The running value, and the law -/

/-- One tile's sum of reals. -/
def tileSumR (t : Fin 32 → Fin 1024 → Fin 1024 → ℝ) (r : Fin 2) (i : Fin 32) (c : Fin 2) : ℝ :=
  ∑ p' : Fin 512, ∑ q' : Fin 512, t i (tileRow r p') (tileRow c q')

theorem tileSum_coe (t : Fin 32 → Fin 1024 → Fin 1024 → ℝ) (r : Fin 2) (i : Fin 32) (c : Fin 2) :
    tileSum (fun n p q => (t n p q : EReal)) r i c = (tileSumR t r i c : EReal) := by
  unfold tileSum tileSumR
  simp only [← coe_finset_sum]

/-- The running value after k visits is the real sum of the first k tiles' sums, each divided by 1024. -/
theorem acc_coe (t : Fin 32 → Fin 1024 → Fin 1024 → ℝ) (r : Fin 2) (k : ℕ) :
    acc (fun n p q => (t n p q : EReal)) r k
      = ((∑ j ∈ Finset.range k,
          tileSumR t r ⟨(j / 2) % 32, Nat.mod_lt _ (by decide)⟩ ⟨j % 2, Nat.mod_lt _ (by decide)⟩ * (1 / 1024) : ℝ) : EReal) := by
  induction k with
  | zero => simp [acc]
  | succ k ih =>
    rw [acc, ih, tileSum_coe, c1024_eq, Ideal.div_coe (by norm_num), ← EReal.coe_mul, ← EReal.coe_add,
      Finset.sum_range_succ]

/-- Row tile r's running value after all 64 visits, summed 8 · 128 times, is the sum of its tiles' sums. -/
theorem acc_copies (t : Fin 32 → Fin 1024 → Fin 1024 → ℝ) (r : Fin 2) :
    (∑ _a : Fin 8, ∑ _b : Fin 128, acc (fun n p q => (t n p q : EReal)) r 64)
      = ((∑ i : Fin 32, ∑ c : Fin 2, tileSumR t r i c : ℝ) : EReal) := by
  rw [acc_coe, ← sum_visits (tileSumR t r)]
  simp only [← coe_finset_sum]
  refine congrArg _ ?_
  rw [Finset.sum_const, Finset.sum_const, Finset.card_univ, Finset.card_univ, Fintype.card_fin, Fintype.card_fin,
    smul_smul, ← Finset.sum_mul, nsmul_eq_mul]
  push_cast
  ring

/-- The law: the two row tiles' running values, each counted 1024 times, make the plain total. -/
theorem acc_total (t : Fin 32 → Fin 1024 → Fin 1024 → ℝ) :
    (∑ _a : Fin 8, ∑ _b : Fin 128, Cert.Spec.acc (fun n p q => (t n p q : EReal)) 0 64)
      + (∑ _a : Fin 8, ∑ _b : Fin 128, Cert.Spec.acc (fun n p q => (t n p q : EReal)) 1 64)
    = ∑ n : Fin 32, ∑ p : Fin 1024, ∑ q : Fin 1024, (t n p q : EReal) := by
  rw [acc_copies, acc_copies, ← EReal.coe_add]
  simp only [← coe_finset_sum]
  refine congrArg _ ?_
  have hn : ∀ n : Fin 32, ∑ p : Fin 1024, ∑ q : Fin 1024, t n p q
      = (tileSumR t 0 n 0 + tileSumR t 0 n 1) + (tileSumR t 1 n 0 + tileSumR t 1 n 1) := by
    intro n
    rw [sum_rows, Fin.sum_univ_two]
    simp only [sum_rows (fun q => t n _ q), Fin.sum_univ_two, Finset.sum_add_distrib, tileSumR]
  simp only [Fin.sum_univ_two, hn, Finset.sum_add_distrib]

/-- The law on finite data: if every entry of both arrays is a real, every summand is a real, and the two row tiles'
    running values, each counted 1024 times, make the sentence total. -/
theorem sentence_bridge (x : Fin 32 → Fin 1024 → Fin 1024 → EReal) (e : Fin 1024 → Fin 1024 → EReal)
    (hx : ∀ n p k, ∃ r : ℝ, x n p k = (r : EReal)) (he : ∀ p k, ∃ r : ℝ, e p k = (r : EReal)) :
    (∑ _a : Fin 8, ∑ _b : Fin 128, Cert.Spec.acc (Cert.Spec.term x e) 0 64)
        + (∑ _a : Fin 8, ∑ _b : Fin 128, Cert.Spec.acc (Cert.Spec.term x e) 1 64)
      = Cert.Spec.total x e := by
  choose xr hxr using hx
  choose er her using he
  obtain rfl : x = fun n p k => (xr n p k : EReal) := funext fun n => funext fun p => funext fun k => hxr n p k
  obtain rfl : e = fun p k => (er p k : EReal) := funext fun p => funext fun k => her p k
  choose t ht using term_real xr er
  have hT : Cert.Spec.term (fun n p k => (xr n p k : EReal)) (fun p k => (er p k : EReal))
      = fun n p q => (t n p q : EReal) := funext fun n => funext fun p => funext fun q => ht n p q
  unfold Cert.Spec.total
  rw [hT]
  exact acc_total t

end Cert.SumLaw

end
-- ==== Proof.Final.lean ====
/-
  The two idealized programs compute the same three numbers.

  The kernel program's sentence term: the second region leaves, in each of the 2 × 8 × 128 entries of its output, the
  running value of that entry's row tile after all 64 visits; the host sums the entries and divides by 2^25. Over
  finite inputs every summand is a real number, the 8 × 128 = 1024 equal entries of a row tile undo the division of each
  tile sum by 1024, and the tiles partition the pairs of rows, so the sum of the entries is the plain total the
  reference sums. The secret term is computed by the same host operations in both programs; the loss is the same
  combination of the two.
-/
import proofs.«136828_j84619445666637_1_alg».proof.Defs
import proofs.«136828_j84619445666637_1_alg».proof.Proof.KI.Run
import proofs.«136828_j84619445666637_1_alg».proof.Proof.K.Run
import proofs.«136828_j84619445666637_1_alg».proof.Proof.KI.R0Value
import proofs.«136828_j84619445666637_1_alg».proof.Proof.KI.R1Value
import proofs.«136828_j84619445666637_1_alg».proof.Proof.KI.Tail
import proofs.«136828_j84619445666637_1_alg».proof.Proof.Gen.Pre_finite_inputs
import proofs.«136828_j84619445666637_1_alg».proof.Proof.Gen.ReferenceIdeal
import proofs.«136828_j84619445666637_1_alg».proof.Proof.Gen.Kernel
import proofs.«136828_j84619445666637_1_alg».proof.Proof.Gen.KernelIdeal
import proofs.«136828_j84619445666637_1_alg».proof.Proof.RefValue
import proofs.«136828_j84619445666637_1_alg».proof.Proof.SumLaw
import Idealize.ShloMosaic.Lib.StableHlo.Run
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The slices and the sentence rows, as the programs' argument arrays hold them. -/
abbrev X0 (c : Dev nD) : S32x1024x1024.Idx → EReal := m ((c.tc : Thread nD τ).loc main_arg0)
abbrev X1 (c : Dev nD) : S1024x1024.Idx → EReal := m ((c.tc : Thread nD τ).loc main_arg1)

/-- The block sums as extended reals. -/
abbrev D1e (c : Dev nD) : S2x8x128.Idx → EReal := D1 m c

/-- The host's sum of every entry of the block sums, from zero, is the plain sum of the entries. -/
theorem sum_blocks (y : Vec Ideal S2x8x128 .f32) (i : S_.Idx) :
    Host.reduceAdd (F := Ideal) y (constant S_ .f32 0x00000000#32) reducesTo_S2x8x128_S_d0_1_2 h_S_ i = ∑ j : S2x8x128.Idx, y j := by
  simp only [Host.reduceAdd, Ideal.hostReduceAdd_def]
  refine (Ideal.hostReduceAdd_total reducesTo_S2x8x128_S_d0_1_2 (fun b => b.elim0) y _ i).trans ?_
  show Ideal.ofBits .f32 0x00000000#32 + _ = _
  rw [Ideal.ofBits_zero_f32, zero_add]

/-- No later host stretch writes the sentence term's buffer. -/
theorem W9_v3 (c : Dev nD) : W9 m c main_v3 = W3 m c main_v3 :=
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide))

/-- The sentence term as the first host stretch computes it from the block sums. -/
theorem W3_v3 (c : Dev nD) : (W3 m c main_v3 : (⟨S_, .f32⟩ : BufTy).Contents (Elt Ideal))
    = Host.divf (F := Ideal) (Host.reduceAdd (F := Ideal) (W2 m c main_v1 : (⟨S2x8x128, .f32⟩ : BufTy).Contents (Elt Ideal))
        (constant (F := Ideal) S_ .f32 0x00000000#32) reducesTo_S2x8x128_S_d0_1_2 h_S_) (constant (F := Ideal) S_ .f32 0x4C000000#32) := by
  show StableHlo.after hostOps2 (W2 m c) (Proc.devRef .tc main_v3) = _
  generalize W2 m c = W
  after_results

/-! ## The sentence term -/

section Sentence

/-- Every entry of the block sums is the running value of its row tile after its 64 visits, over the plain summand. -/
theorem D1_apply (c : Dev nD) (r : Fin 2) (a : Fin 8) (b : Fin 128) :
    D1 m c (ix3 r a b) = Cert.Spec.acc (Cert.Spec.term (fun n p k => X0 m c (ix3 n p k)) (fun p k => X1 m c (ix2 p k))) r 64 := by
  unfold D1
  rw [final1 (VT1 m) c r a b]
  congr 1
  funext n p q
  unfold Cert.Spec.term
  have h0 : ∀ j, VT1 m c main_arg0 j = X0 m c j := fun j => congrFun (W1_of_ne m c main_arg0 (by decide)) j
  have h1 : VT1 m c main_v0 (ix2 p q) = Cert.Spec.dist (fun k => X1 m c (ix2 p k)) (fun k => X1 m c (ix2 q k)) := by
    show W1 m c main_v0 (ix2 p q) = _
    rw [W1_v0]; unfold D0
    exact final0 (VT0 m) c p q
  simp only [h0, h1]

/-- Over finite inputs the sum of the block sums is the reference's total. -/
theorem sum_D1 (c : Dev nD) (hx : ∀ j, ∃ r : ℝ, X0 m c j = (r : EReal)) (he : ∀ j, ∃ r : ℝ, X1 m c j = (r : EReal)) :
    ∑ j : S2x8x128.Idx, D1e m c j = Cert.Spec.total (fun n p k => X0 m c (ix3 n p k)) (fun p k => X1 m c (ix2 p k)) := by
  rw [Cert.RefValue.sum_idx3 (D1e m c), Fin.sum_univ_two]
  simp only [D1e, D1_apply m c]
  exact Cert.SumLaw.sentence_bridge _ _ (fun n p k => hx _) (fun p k => he _)

/-- The kernel program's sentence term is the reference's. -/
theorem sent_eq (c : Dev nD) (hx : ∀ j, ∃ r : ℝ, X0 m c j = (r : EReal)) (he : ∀ j, ∃ r : ℝ, X1 m c j = (r : EReal)) :
    (W9 m c main_v3 : (⟨S_, .f32⟩ : BufTy).Contents (Elt Ideal)) = Cert.ReferenceIdeal.Read.val_main_v39 (F := Ideal) (X0 m c) (X1 m c) := by
  rw [W9_v3, W3_v3, W2_v1]
  funext i
  show FloatOps.hostDivf (Host.reduceAdd (F := Ideal) (D1e m c) (constant (F := Ideal) S_ .f32 0x00000000#32) reducesTo_S2x8x128_S_d0_1_2 h_S_ i) (constant (F := Ideal) S_ .f32 0x4C000000#32 i)
    = FloatOps.hostDivf (Cert.ReferenceIdeal.Read.val_main_v38 (F := Ideal) (X0 m c) (X1 m c) i) (Cert.ReferenceIdeal.Read.val_main_cst_8 (F := Ideal) i)
  rw [sum_blocks, sum_D1 m c hx he, Cert.RefValue.ref_total]
  rfl

end Sentence

/-! ## The claims -/

section Claims

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the arguments both idealized programs run, and end with the same loss, the same sentence
    term and the same secret term. -/
theorem algebraic : Cert.algebraic_KernelIdeal_ReferenceIdeal := by
  intro m ρ m' ρ' hpre hagree
  refine ⟨fun c => W9 m c main_v33, fun c => W9 m c main_v3, fun c => W9 m c main_v30, ?_, ?_⟩
  · exact (θ_run Cert.KernelIdeal.defs _ _).mono (fun _ h c =>
      ⟨h c _ (mem_uc main_v33 (by decide)), h c _ (mem_uc main_v3 (by decide)), h c _ (mem_uc main_v30 (by decide)),
        (h c _ (mem_uc main_arg0 (by decide))).trans (W9_main_arg0 m c), (h c _ (mem_uc main_arg1 (by decide))).trans (W9_main_arg1 m c)⟩) (run_all m ρ)
  · refine (θ_run Cert.ReferenceIdeal.defs _ _).mono (fun _ h c => ?_) (Cert.ReferenceIdeal.Value.run (F := Ideal) m' ρ')
    obtain ⟨hx, he⟩ := Cert.RefValue.finite_of_pre _ _ (hpre c)
    have hs := sent_eq m c hx he
    refine ⟨(h c).1.trans ?_, (h c).2.1.trans ?_, (h c).2.2.1.trans ?_, (h c).2.2.2.1, (h c).2.2.2.2⟩
    · rw [Cert.ReferenceIdeal.Read.val_main_v69_eq, (hagree c).1, (hagree c).2]
      refine Eq.trans ?_ (loss_eq m c).symm
      rw [hs, tail_eq m c]
      rfl
    · rw [Cert.ReferenceIdeal.Read.val_main_v39_eq, (hagree c).1, (hagree c).2]
      exact hs.symm
    · rw [(hagree c).1]
      exact (Cert.ReferenceIdeal.Read.val_main_v66_eq _).trans (tail_eq m c).symm

end Claims

end Cert.KernelIdeal.Hand

end
-- ==== Proof.lean ====
/-
  The certificate's five claims assembled.

  Both kernel programs — as printed and idealized — run to the end without a fault and leave their argument arrays as
  launched: each of their two kernel regions is run window by window, the body's effect on the staging buffers stated
  point by point (Proof/K, Proof/KI). The reference program is a straight line of host operations. The idealization
  rewrote nothing. At the ideal instance the tiled sum of squared distance differences the kernels accumulate is the
  plain sum the reference takes, over finite inputs, and the remaining host operations coincide (Proof/Final.lean).
-/
import proofs.«136828_j84619445666637_1_alg».proof.Defs
import proofs.«136828_j84619445666637_1_alg».proof.Proof.Gen.Kernel
import proofs.«136828_j84619445666637_1_alg».proof.Proof.Gen.KernelIdeal
import proofs.«136828_j84619445666637_1_alg».proof.Proof.Gen.ReferenceIdeal
import proofs.«136828_j84619445666637_1_alg».proof.Proof.Gen.Pre_finite_inputs
import proofs.«136828_j84619445666637_1_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.KernelIdeal.Hand.frame_k, Cert.KernelIdeal.Hand.frame_ki, Cert.KernelIdeal.Hand.frame_ri,
    Cert.KernelIdeal.Hand.preserves, Cert.KernelIdeal.Hand.algebraic⟩

end Cert.Proof

end
